-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S16x512 : Shape := ⟨2, ![16, 512]⟩
abbrev S16 : Shape := ⟨1, ![16]⟩
abbrev S512x16 : Shape := ⟨2, ![512, 16]⟩
abbrev S512 : Shape := ⟨1, ![512]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_
  bcast_S_S512x16 : S_.BroadcastsInDim S512x16 (![] : Fin 0 → Fin S512x16.rank)
  reducesTo_S512x16_S_d0_1 : S512x16.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x256x32x32 .f32) (main_arg1 : FVec F S16x512 .f32) (main_arg2 : FVec F S16 .f32) (main_arg3 : FVec F S512x16 .f32) (main_arg4 : FVec F S512 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg4 main_v13 main_v16
-- ==== Kernel.lean ====
abbrev S64x256x32x32 : Shape := ⟨4, ![64, 256, 32, 32]⟩
abbrev S16x512 : Shape := ⟨2, ![16, 512]⟩
abbrev S16 : Shape := ⟨1, ![16]⟩
abbrev S512x16 : Shape := ⟨2, ![512, 16]⟩
abbrev S512 : Shape := ⟨1, ![512]⟩
abbrev S64x256x1024 : Shape := ⟨3, ![64, 256, 1024]⟩
abbrev S16x256 : Shape := ⟨2, ![16, 256]⟩
abbrev S256x16 : Shape := ⟨2, ![256, 16]⟩
abbrev S1x16 : Shape := ⟨2, ![1, 16]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩

abbrev nBuf : Space → Nat
  | .hbm => 19
  | .vmem => 11
  | .smem => 0
  | _ => 0

abbrev bufTy : (tb : Table) → Fin (tcTables nBuf tb) → BufTy
  | .hbm, ⟨0, _⟩ => ⟨S64x256x32x32, .f32⟩
  | .hbm, ⟨1, _⟩ => ⟨S16x512, .f32⟩
  | .hbm, ⟨2, _⟩ => ⟨S16, .f32⟩
  | .hbm, ⟨3, _⟩ => ⟨S512x16, .f32⟩
  | .hbm, ⟨4, _⟩ => ⟨S512, .f32⟩
  | .hbm, ⟨5, _⟩ => ⟨S64x256x1024, .f32⟩
  | .hbm, ⟨6, _⟩ => ⟨S16x256, .f32⟩
  | .hbm, ⟨7, _⟩ => ⟨S256x16, .f32⟩
  | .hbm, ⟨8, _⟩ => ⟨S16x256, .f32⟩
  | .hbm, ⟨9, _⟩ => ⟨S256x16, .f32⟩
  | .hbm, ⟨10, _⟩ => ⟨S1x16, .f32⟩
  | .hbm, ⟨11, _⟩ => ⟨S256x16, .f32⟩
  | .hbm, ⟨12, _⟩ => ⟨S256x16, .f32⟩
  | .hbm, ⟨13, _⟩ => ⟨S256, .f32⟩
  | .hbm, ⟨14, _⟩ => ⟨S256x1, .f32⟩
  | .hbm, ⟨15, _⟩ => ⟨S256, .f32⟩
  | .hbm, ⟨16, _⟩ => ⟨S256x1, .f32⟩
  | .hbm, ⟨17, _⟩ => ⟨S64x256x1024, .f32⟩
  | .hbm, ⟨18, _⟩ => ⟨S64x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S256x16, .f32⟩
  | .local _ .vmem, ⟨3, _⟩ => ⟨S256x16, .f32⟩
  | .local _ .vmem, ⟨4, _⟩ => ⟨S1x16, .f32⟩
  | .local _ .vmem, ⟨5, _⟩ => ⟨S256x16, .f32⟩
  | .local _ .vmem, ⟨6, _⟩ => ⟨S256x16, .f32⟩
  | .local _ .vmem, ⟨7, _⟩ => ⟨S256x1, .f32⟩
  | .local _ .vmem, ⟨8, _⟩ => ⟨S256x1, .f32⟩
  | .local _ .vmem, ⟨9, _⟩ => ⟨S1x256x1024, .f32⟩
  | .local _ .vmem, ⟨10, _⟩ => ⟨S1x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x256x32x32_S64x256x1024 : S64x256x32x32.ShapeCasts S64x256x1024
  slices_S16x512_S16x256_0_0 : S16x512.Slices ![0, 0] S16x256
  transposes_S16x256_S256x16_1_0 : S16x256.Transposes [1, 0] S256x16
  slices_S16x512_S16x256_0_256 : S16x512.Slices ![0, 256] S16x256
  shapeCasts_S16_S1x16 : S16.ShapeCasts S1x16
  slices_S512x16_S256x16_0_0 : S512x16.Slices ![0, 0] S256x16
  slices_S512x16_S256x16_256_0 : S512x16.Slices ![256, 0] S256x16
  slices_S512_S256_0 : S512.Slices ![0] S256
  shapeCasts_S256_S256x1 : S256.ShapeCasts S256x1
  slices_S512_S256_256 : S512.Slices ![256] S256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  broadcasts_S256x1_S256x16 : S256x1.Broadcasts S256x16
  reduces_S256x16_S16 : S256x16.Reduces [0] S16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  reduces_S256x16_S256 : S256x16.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  shapeCasts_S256x1024_S1x256x1024 : S256x1024.ShapeCasts S1x256x1024
  shapeCasts_S64x256x1024_S64x256x32x32 : S64x256x1024.ShapeCasts S64x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .f32 = 32 ∨ (Rect.block (s := S256x16) S256x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S64x256x1024.size a
  hwx0_8 : ∀ i : grid0.Coords, EltTy.bits .f32 = 32 ∨ (Rect.block (s := S64x256x1024) S1x256x1024.size (cc0_transform_8 i) (hinb0_8 i)).WholeWords (EltTy.packing .f32)

variable [Facts₀]

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S16x512 : Shape := ⟨2, ![16, 512]⟩
abbrev S16 : Shape := ⟨1, ![16]⟩
abbrev S512x16 : Shape := ⟨2, ![512, 16]⟩
abbrev S512 : Shape := ⟨1, ![512]⟩
abbrev S16x256 : Shape := ⟨2, ![16, 256]⟩
abbrev S256x16 : Shape := ⟨2, ![256, 16]⟩
abbrev S1x16 : Shape := ⟨2, ![1, 16]⟩
abbrev S256 : Shape := ⟨1, ![256]⟩
abbrev S1x256 : Shape := ⟨2, ![1, 256]⟩
abbrev S64x256x1024 : Shape := ⟨3, ![64, 256, 1024]⟩
abbrev S4x256x1024 : Shape := ⟨3, ![4, 256, 1024]⟩
abbrev S4x256 : Shape := ⟨2, ![4, 256]⟩
abbrev S4x16 : Shape := ⟨2, ![4, 16]⟩
abbrev S4x256x1 : Shape := ⟨3, ![4, 256, 1]⟩

abbrev nBuf : Space → Nat
  | .hbm => 21
  | .vmem => 11
  | .smem => 0
  | _ => 0

abbrev bufTy : (tb : Table) → Fin (tcTables nBuf tb) → BufTy
  | .hbm, ⟨0, _⟩ => ⟨S64x256x32x32, .f32⟩
  | .hbm, ⟨1, _⟩ => ⟨S16x512, .f32⟩
  | .hbm, ⟨2, _⟩ => ⟨S16, .f32⟩
  | .hbm, ⟨3, _⟩ => ⟨S512x16, .f32⟩
  | .hbm, ⟨4, _⟩ => ⟨S512, .f32⟩
  | .hbm, ⟨5, _⟩ => ⟨S16x256, .f32⟩
  | .hbm, ⟨6, _⟩ => ⟨S256x16, .f32⟩
  | .hbm, ⟨7, _⟩ => ⟨S16x256, .f32⟩
  | .hbm, ⟨8, _⟩ => ⟨S256x16, .f32⟩
  | .hbm, ⟨9, _⟩ => ⟨S1x16, .f32⟩
  | .hbm, ⟨10, _⟩ => ⟨S256x16, .f32⟩
  | .hbm, ⟨11, _⟩ => ⟨S16x256, .f32⟩
  | .hbm, ⟨12, _⟩ => ⟨S256x16, .f32⟩
  | .hbm, ⟨13, _⟩ => ⟨S16x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S64x256x1024, .f32⟩
  | .hbm, ⟨19, _⟩ => ⟨S64x256x1024, .f32⟩
  | .hbm, ⟨20, _⟩ => ⟨S64x256x32x32, .f32⟩
  | .local _ .vmem, ⟨0, _⟩ => ⟨S4x256x1024, .f32⟩
  | .local _ .vmem, ⟨1, _⟩ => ⟨S4x256x1024, .f32⟩
  | .local _ .vmem, ⟨2, _⟩ => ⟨S256x16, .f32⟩
  | .local _ .vmem, ⟨3, _⟩ => ⟨S256x16, .f32⟩
  | .local _ .vmem, ⟨4, _⟩ => ⟨S1x16, .f32⟩
  | .local _ .vmem, ⟨5, _⟩ => ⟨S16x256, .f32⟩
  | .local _ .vmem, ⟨6, _⟩ => ⟨S16x256, .f32⟩
  | .local _ .vmem, ⟨7, _⟩ => ⟨S1x256, .f32⟩
  | .local _ .vmem, ⟨8, _⟩ => ⟨S1x256, .f32⟩
  | .local _ .vmem, ⟨9, _⟩ => ⟨S4x256x1024, .f32⟩
  | .local _ .vmem, ⟨10, _⟩ => ⟨S4x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S16x512_S16x256_0_0 : S16x512.Slices ![0, 0] S16x256
  transposes_S16x256_S256x16_1_0 : S16x256.Transposes [1, 0] S256x16
  slices_S16x512_S16x256_0_256 : S16x512.Slices ![0, 256] S16x256
  shapeCasts_S16_S1x16 : S16.ShapeCasts S1x16
  slices_S512x16_S256x16_0_0 : S512x16.Slices ![0, 0] S256x16
  transposes_S256x16_S16x256_1_0 : S256x16.Transposes [1, 0] S16x256
  slices_S512x16_S256x16_256_0 : S512x16.Slices ![256, 0] S256x16
  slices_S512_S256_0 : S512.Slices ![0] S256
  shapeCasts_S256_S1x256 : S256.ShapeCasts S1x256
  slices_S512_S256_256 : S512.Slices ![256] S256
  shapeCasts_S64x256x32x32_S64x256x1024 : S64x256x32x32.ShapeCasts S64x256x1024
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x1024_S4x256 : S4x256x1024.Reduces [2] S4x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4x16 : S1x16.Broadcasts S4x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  shapeCasts_S4x256_S4x256x1 : S4x256.ShapeCasts S4x256x1
  broadcasts_S4x256x1_S4x256x1024 : S4x256x1.Broadcasts S4x256x1024
  shapeCasts_S64x256x1024_S64x256x32x32 : S64x256x1024.ShapeCasts S64x256x32x32
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S64x256x1024.size a
  hwx0_0 : ∀ i : grid0.Coords, EltTy.bits .f32 = 32 ∨ (Rect.block (s := S64x256x1024) S4x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .f32 = 32 ∨ (Rect.block (s := S16x256) S16x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .f32 = 32 ∨ (Rect.block (s := S16x256) S16x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x1024.size a ≤ S64x256x1024.size a
  hwx0_8 : ∀ i : grid0.Coords, EltTy.bits .f32 = 32 ∨ (Rect.block (s := S64x256x1024) S4x256x1024.size (cc0_transform_8 i) (hinb0_8 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v13) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S4x256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Spec.lean ====
/-
  The function both programs compute, one image at a time, on the extended reals.

  For one image `X` (256 channels, 1024 positions): every channel is pooled to its mean `avg c = (∑ l, X c l) · 2⁻¹⁰`
  and to its maximum `mx c`; a hidden layer of 16 units takes `hid j = ∑ c, (avg c · A c j + mx c · M c j) + b1 j`
  and passes it through the smooth gate `h ↦ h · tanh (softplus h)`; two affine maps of the gated units give, per
  channel, a scale `gam c` and a shift `bet c`; the result is `logistic (gam c) · X c l + bet c`.

  Two rearrangements are proved here, both valid on every extended real because they use only that addition is a
  commutative monoid and multiplication commutes: the hidden layer as a sum of two separate sums, and the two affine
  maps with their factors in the other order.
-/
import Idealize.ShloMosaic.PureOps.Ideal
import Idealize.ShloMosaic.PureOps.Ideal.Laws
import Idealize.ShloMosaic.Lib.ValueIdx

noncomputable section

open scoped BigOperators

namespace Cert.SE

open Idealize.ShloMosaic

/-- The smooth gate at one value: `h · tanh (softplus h)`, softplus taken as `max h 0 + log1p (exp (−|h − 0|))` where
    `h − 0` compares equal to itself and as `h + 0` otherwise, exactly as both programs spell it. -/
def mish (h : EReal) : EReal :=
  FloatOps.mulf (F := Ideal) (φ := .f32) h
    (FloatOps.tanh (F := Ideal) (φ := .f32)
      (Scalar.select
        (FloatOps.cmpf (F := Ideal) (φ := .f32) .one
          (FloatOps.subf (F := Ideal) (φ := .f32) h (Scalar.ofBits (F := Ideal) .f32 0x00000000#32))
          (FloatOps.subf (F := Ideal) (φ := .f32) h (Scalar.ofBits (F := Ideal) .f32 0x00000000#32)))
        (FloatOps.addf (F := Ideal) (φ := .f32) h (Scalar.ofBits (F := Ideal) .f32 0x00000000#32))
        (FloatOps.addf (F := Ideal) (φ := .f32)
          (FloatOps.maximumf (F := Ideal) (φ := .f32) h (Scalar.ofBits (F := Ideal) .f32 0x00000000#32))
          (FloatOps.log1p (F := Ideal) (φ := .f32)
            (FloatOps.exp (F := Ideal) (φ := .f32)
              (FloatOps.subf (F := Ideal) (φ := .f32) (Scalar.ofBits (F := Ideal) .f32 0x00000000#32)
                (FloatOps.absf (F := Ideal) (φ := .f32)
                  (FloatOps.subf (F := Ideal) (φ := .f32) h (Scalar.ofBits (F := Ideal) .f32 0x00000000#32)))))))))

/-- The gate over a whole vector, operation by operation, is the scalar gate at every index. -/
theorem mish_vec {s : Shape} (v : FVec Ideal s .f32) (i : s.Idx) :
    mulf v (tanh (select (cmpf .one (subf v (broadcast s (Scalar.ofBits .f32 0x00000000#32)))
        (subf v (broadcast s (Scalar.ofBits .f32 0x00000000#32))))
      (addf v (broadcast s (Scalar.ofBits .f32 0x00000000#32)))
      (addf (maximumf v (broadcast s (Scalar.ofBits .f32 0x00000000#32)))
        (log1p (exp (subf (broadcast s (Scalar.ofBits .f32 0x00000000#32))
          (absf (subf v (broadcast s (Scalar.ofBits .f32 0x00000000#32)))))))))) i = mish (v i) := rfl

section
variable (X : Fin 256 → Fin 1024 → EReal) (A M : Fin 256 → Fin 16 → EReal) (b1 : Fin 16 → EReal)
  (Wg Wb : Fin 256 → Fin 16 → EReal) (bg bb : Fin 256 → EReal)

/-- A channel's mean: the sum over the positions times `2⁻¹⁰` (the word `0x3A800000`). -/
def avg (c : Fin 256) : EReal := (∑ l : Fin 1024, X c l) * Ideal.ofBits .f32 0x3A800000#32

/-- A channel's maximum, folded from the value of the word for −∞. -/
def mx (c : Fin 256) : EReal :=
  (Finset.univ : Finset (Fin 1024)).fold max (Ideal.ofBits .f32 0xFF800000#32) (fun l => X c l)

/-- The hidden layer before the gate. -/
def hid (j : Fin 16) : EReal := (∑ c : Fin 256, (avg X c * A c j + mx X c * M c j)) + b1 j

/-- The gated hidden unit. -/
def gate (j : Fin 16) : EReal := mish (hid X A M b1 j)

/-- The scale before the logistic, and the shift. -/
def gam (c : Fin 256) : EReal := (∑ j : Fin 16, Wg c j * gate X A M b1 j) + bg c
def bet (c : Fin 256) : EReal := (∑ j : Fin 16, Wb c j * gate X A M b1 j) + bb c

/-- The result for one image. -/
def out (c : Fin 256) (l : Fin 1024) : EReal :=
  Ideal.logistic (gam X A M b1 Wg bg c) * X c l + bet X A M b1 Wb bb c

/-- The hidden layer as two separate sums: a finite sum of pairwise sums is the sum of the two sums, in any
    commutative monoid. -/
theorem hid_two_sums (j : Fin 16) :
    ((∑ c : Fin 256, avg X c * A c j) + (∑ c : Fin 256, mx X c * M c j)) + b1 j = hid X A M b1 j := by
  unfold hid
  rw [Finset.sum_add_distrib]

/-- The scale with the factors of each product swapped. -/
theorem gam_swapped (c : Fin 256) :
    (∑ j : Fin 16, gate X A M b1 j * Wg c j) + bg c = gam X A M b1 Wg bg c := by
  unfold gam
  exact congrArg (· + bg c) (Finset.sum_congr rfl fun j _ => mul_comm _ _)

/-- The shift with the factors of each product swapped. -/
theorem bet_swapped (c : Fin 256) :
    (∑ j : Fin 16, gate X A M b1 j * Wb c j) + bb c = bet X A M b1 Wb bb c := by
  unfold bet
  exact congrArg (· + bb c) (Finset.sum_congr rfl fun j _ => mul_comm _ _)

end

end Cert.SE

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.LibPairLayout.lean ====
/-
  Layout operations a pairwise table goes through, read at an index.

  A table over pairs `(i, j)` of rows of one `[a, b]` matrix is built by casting the matrix to `[a, 1, b]` and to
  `[1, a, b]` and repeating each along the unit axis: at `(i, j, r)` the first reads row `i`, the second row `j`.  A
  `[a, b]` table of weights is given a trailing unit axis and repeated along it.  Sums over the leading axis of the
  rank-three and rank-two results are plain sums over that axis's coordinate.
-/
import Idealize.ShloMosaic.Lib.Pipeline.Value
import Idealize.ShloMosaic.Lib.ValueIdx
import Idealize.ShloMosaic.PureOps.Ideal.Laws

namespace Idealize.ShloMosaic.ValueIdx

variable {α : Type}

/-- An `[a, b]` array cast to `[a, 1, b]` reads, at `(i, u, j)`, the operand at `(i, j)`: in row-major order the
    position is `(i · 1 + u) · b + j = i · b + j`, the unit coordinate being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array repeated along its unit axis to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, a, b]` array repeated along its unit axis to `[c, a, b]` reads, at `(k, i, j)`, the operand at `(0, i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[a, b, 1]` array repeated along its unit axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- At the exact values, the sum over the leading axis of an `[a, b, c]` array, read at `(j, r)`, is the sum over `k` of
    the entries `(k, j, r)`. -/
theorem sum_leading_of3 {a b c : ℕ} {φ : FTy} (src : FVec Ideal ⟨3, ![a, b, c]⟩ φ) (acc : BitVec φ.bits)
    (h : (⟨3, ![a, b, c]⟩ : Shape).Reduces [(0 : Fin 3)] ⟨2, ![b, c]⟩) (hφ : FKind.Formats φ)
    (hacc : acc = FKind.add.neutral φ hφ) (j : Fin b) (r : Fin c) :
    multiReduction .add [(0 : Fin 3)] ⟨2, ![b, c]⟩ src acc h hφ hacc (ix2 j r) = ∑ k : Fin a, src (ix3 k j r) := by
  rw [Ideal.multiReduction_add_single]
  refine Finset.sum_congr rfl fun k _ => congrArg src ?_
  funext d
  apply Fin.ext
  match d with
  | ⟨0, _⟩ => rfl
  | ⟨1, _⟩ => rfl
  | ⟨2, _⟩ => rfl

/-- At the exact values, the sum over the leading axis of an `[a, b]` array, read at `r`, is the sum over `k` of the
    entries `(k, r)`. -/
theorem sum_leading_of2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (r : Fin b) :
    multiReduction .add [(0 : Fin 2)] ⟨1, ![b]⟩ src acc h hφ hacc (ix1 r) = ∑ k : Fin a, src (ix2 k r) := by
  rw [Ideal.multiReduction_add_single]
  refine Finset.sum_congr rfl fun k _ => congrArg src ?_
  funext d
  apply Fin.ext
  match d with
  | ⟨0, _⟩ => rfl
  | ⟨1, _⟩ => rfl

end Idealize.ShloMosaic.ValueIdx
-- ==== Proof.KPay.lean ====
/-
  What the kernel's body leaves in its output block, read at one index.

  The body works on one image: its block `x0` is `[1, 256, 1024]`, the two first-layer weight blocks `x1`, `x2` are
  `[256, 16]`, the first-layer bias `x3` is the row `[1, 16]`, the second-layer weight blocks `x4`, `x5` are `[256, 16]` and
  the second-layer biases `x6`, `x7` are columns `[256, 1]`. Every pooled statistic is kept as a column `[256, 1]`: a row
  sum or row maximum cast to a column, repeated along the 16 hidden units, multiplied by a weight block and summed over
  the 256 rows; the gated hidden row is repeated along the 256 channels, multiplied and summed over its 16 entries.
  Read at `(0, p, l)` the stored value is `Cert.SE.out` of the blocks' entries at channel `p` and position `l`.
-/
import proofs.«181714_g2000503831619552_pallasbulk_628_2_alg».proof.Proof.Gen.KernelIdeal.Skeleton
import proofs.«181714_g2000503831619552_pallasbulk_628_2_alg».proof.Proof.Spec
import proofs.«181714_g2000503831619552_pallasbulk_628_2_alg».proof.Proof.LibKeepdims
import proofs.«181714_g2000503831619552_pallasbulk_628_2_alg».proof.Proof.LibLastAxis
import proofs.«181714_g2000503831619552_pallasbulk_628_2_alg».proof.Proof.LibPairLayout
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- A row sum kept as a column and scaled by a splat constant: at `(p, u)` it is the sum of row `p` times the constant. -/
theorem mean_col (x : FVec Ideal S256x1024 .f32) (w : BitVec 32) (hr : S256x1024.Reduces [1] S256) (hc : S256.ShapeCasts S256x1)
    (hφ : FKind.Formats .f32) (hacc : (0x00000000#32 : BitVec 32) = FKind.add.neutral .f32 hφ) (p : Fin 256) (u : Fin 1) :
    mulf (shapeCast S256x1 (multiReduction .add [1] S256 x 0x00000000#32 hr hφ hacc) hc)
        (broadcast S256x1 (Scalar.ofBits .f32 w)) (ix2 p u)
      = (∑ l : Fin 1024, x (ix2 p l)) * Ideal.ofBits .f32 w :=
  congrArg (· * Ideal.ofBits .f32 w)
    ((shapeCast_a_a1_apply _ hc p u).trans
      ((Ideal.multiReduction_add_single x _ hr hφ hacc (ix1 p)).trans
        (Finset.sum_congr rfl fun k _ => congrArg x (Cert.LibLastAxis.lift_row hr p k))))

/-- A row maximum kept as a column: at `(p, u)` it is the fold of `max` over row `p`, from the seed's value. -/
theorem max_col (x : FVec Ideal S256x1024 .f32) (hr : S256x1024.Reduces [1] S256) (hc : S256.ShapeCasts S256x1)
    (hφ : FKind.Formats .f32) (hacc : (0xFF800000#32 : BitVec 32) = FKind.maximumf.neutral .f32 hφ) (p : Fin 256) (u : Fin 1) :
    shapeCast S256x1 (multiReduction .maximumf [1] S256 x 0xFF800000#32 hr hφ hacc) hc (ix2 p u)
      = (Finset.univ : Finset (Fin 1024)).fold max (Ideal.ofBits .f32 0xFF800000#32) (fun l => x (ix2 p l)) :=
  (shapeCast_a_a1_apply _ hc p u).trans
    ((Ideal.multiReduction_maximumf_single x _ hr hφ hacc (ix1 p)).trans
      (congrArg (fun f => Finset.fold max (Ideal.ofBits .f32 0xFF800000#32) f (Finset.univ : Finset (Fin 1024)))
        (funext fun k => congrArg x (Cert.LibLastAxis.lift_row hr p k))))

/-- The hidden layer before the gate: two columns repeated along the 16 units, each multiplied by its weight block, added,
    summed over the 256 rows, written as a row and added to the bias row. -/
theorem hidden_row (ac mc : FVec Ideal S256x1 .f32) (wa wm : FVec Ideal S256x16 .f32) (b : FVec Ideal S1x16 .f32)
    (hb : S256x1.Broadcasts S256x16) (hr : S256x16.Reduces [0] S16) (hc : S16.ShapeCasts S1x16)
    (hφ : FKind.Formats .f32) (hacc : (0x00000000#32 : BitVec 32) = FKind.add.neutral .f32 hφ) (u : Fin 1) (j : Fin 16) :
    addf (shapeCast S1x16 (multiReduction .add [0] S16
        (addf (mulf (broadcastTo S256x16 ac hb) wa) (mulf (broadcastTo S256x16 mc hb) wm)) 0x00000000#32 hr hφ hacc) hc) b (ix2 u j)
      = (∑ c : Fin 256, (ac (ix2 c (0 : Fin 1)) * wa (ix2 c j) + mc (ix2 c (0 : Fin 1)) * wm (ix2 c j))) + b (ix2 u j) :=
  congrArg (· + b (ix2 u j))
    ((shapeCast_a_1a_apply _ hc u j).trans
      ((sum_leading_of2 _ _ hr hφ hacc j).trans
        (Finset.sum_congr rfl fun c _ =>
          congrArg₂ (· + ·)
            (congrArg (· * wa (ix2 c j)) (broadcastTo_a1_ab_apply ac hb c j))
            (congrArg (· * wm (ix2 c j)) (broadcastTo_a1_ab_apply mc hb c j)))))

/-- One affine map of the gated row: the row repeated along the 256 channels, multiplied by a weight block, summed over
    its 16 entries, kept as a column and added to a bias column. -/
theorem excite_col (w : FVec Ideal S256x16 .f32) (g : FVec Ideal S1x16 .f32) (b : FVec Ideal S256x1 .f32)
    (hb : S1x16.Broadcasts S256x16) (hr : S256x16.Reduces [1] S256) (hc : S256.ShapeCasts S256x1)
    (hφ : FKind.Formats .f32) (hacc : (0x00000000#32 : BitVec 32) = FKind.add.neutral .f32 hφ) (p : Fin 256) (u : Fin 1) :
    addf (shapeCast S256x1 (multiReduction .add [1] S256 (mulf w (broadcastTo S256x16 g hb)) 0x00000000#32 hr hφ hacc) hc) b (ix2 p u)
      = (∑ j : Fin 16, w (ix2 p j) * g (ix2 (0 : Fin 1) j)) + b (ix2 p u) :=
  congrArg (· + b (ix2 p u))
    ((shapeCast_a_a1_apply _ hc p u).trans
      ((Ideal.multiReduction_add_single _ _ hr hφ hacc (ix1 p)).trans
        (Finset.sum_congr rfl fun k _ =>
          (congrArg (mulf w (broadcastTo S256x16 g hb)) (Cert.LibLastAxis.lift_row hr p k)).trans
            (congrArg (w (ix2 p k) * ·) (broadcastTo_1b_ab_apply g hb p k)))))

/-- The last step: a scale column and a shift column repeated along the 1024 positions, `scale · x + shift`, given a
    leading unit axis. -/
theorem affine_block (s t : FVec Ideal S256x1 .f32) (x : FVec Ideal S256x1024 .f32)
    (hb : S256x1.Broadcasts S256x1024) (hc : S256x1024.ShapeCasts S1x256x1024) (u : Fin 1) (p : Fin 256) (l : Fin 1024) :
    shapeCast S1x256x1024 (addf (mulf (broadcastTo S256x1024 s hb) x) (broadcastTo S256x1024 t hb)) hc (ix3 u p l)
      = s (ix2 p (0 : Fin 1)) * x (ix2 p l) + t (ix2 p (0 : Fin 1)) :=
  (shapeCast_ab_1ab_apply _ hc u p l).trans
    (congrArg₂ (· + ·)
      (congrArg (· * x (ix2 p l)) (broadcastTo_a1_ab_apply s hb p l))
      (broadcastTo_a1_ab_apply t hb p l))

/-- The image block with its leading unit axis dropped. -/
theorem image_rows (x0 : Vec Ideal S1x256x1024 .f32) (p : Fin 256) (l : Fin 1024) :
    k0_pay2 x0 (ix2 p l) = x0 (ix3 (0 : Fin 1) p l) := by
  unfold k0_pay2
  exact shapeCast_1ab_ab_apply _ _ p l

section
variable (x0 : Vec Ideal S1x256x1024 .f32) (x1 x2 : Vec Ideal S256x16 .f32) (x3 : Vec Ideal S1x16 .f32)
  (x4 x5 : Vec Ideal S256x16 .f32) (x6 x7 : Vec Ideal S256x1 .f32)

/-- The image, the weights and the biases as plain functions of channel, unit and position. -/
abbrev img : Fin 256 → Fin 1024 → EReal := fun c l => x0 (ix3 (0 : Fin 1) c l)
abbrev mat (x : Vec Ideal S256x16 .f32) : Fin 256 → Fin 16 → EReal := fun c j => x (ix2 c j)
abbrev row (x : Vec Ideal S1x16 .f32) : Fin 16 → EReal := fun j => x (ix2 (0 : Fin 1) j)
abbrev col (x : Vec Ideal S256x1 .f32) : Fin 256 → EReal := fun c => x (ix2 c (0 : Fin 1))

/-- The gated hidden row at unit `j`. -/
theorem gate_at (u : Fin 1) (j : Fin 16) :
    k0_pay3 x0 x1 x2 x3 (ix2 u j) = Cert.SE.gate (img x0) (mat x1) (mat x2) (row x3) j := by
  obtain rfl : u = 0 := Subsingleton.elim _ _
  unfold k0_pay3
  refine (Cert.SE.mish_vec _ _).trans (congrArg Cert.SE.mish ?_)
  refine (hidden_row _ _ _ _ _ _ _ _ _ _ 0 j).trans ?_
  unfold Cert.SE.hid
  refine congrArg₂ (· + ·) (Finset.sum_congr rfl fun c _ => congrArg₂ (· + ·) (congrArg₂ (· * ·) ?_ ?_) (congrArg₂ (· * ·) ?_ ?_)) ?_
  · refine (mean_col _ _ _ _ _ _ c 0).trans ?_
    unfold Cert.SE.avg
    exact congrArg (· * _) (Finset.sum_congr rfl fun l _ => image_rows x0 c l)
  · exact congrFun (shapeCast_self x1 _) _
  · refine (max_col _ _ _ _ _ c 0).trans ?_
    unfold Cert.SE.mx
    exact congrArg (fun f => Finset.fold max _ f Finset.univ) (funext fun l => image_rows x0 c l)
  · exact congrFun (shapeCast_self x2 _) _
  · exact congrFun (shapeCast_self x3 _) _

/-- THE STORED BLOCK at `(u, p, l)`: the specification at channel `p`, position `l`, of the blocks' entries. -/
theorem stored_at (u : Fin 1) (p : Fin 256) (l : Fin 1024) :
    k0_pay1 (k0_pay2 x0) (k0_pay3 x0 x1 x2 x3) (k0_pay4 x0 x1 x2 x3 x4) x6 x5 x7 (ix3 u p l)
      = Cert.SE.out (img x0) (mat x1) (mat x2) (row x3) (mat x4) (mat x5) (col x6) (col x7) p l := by
  unfold k0_pay1 k0_pay4
  refine (affine_block _ _ _ _ _ u p l).trans ?_
  unfold Cert.SE.out
  refine congrArg₂ (· + ·) (congrArg₂ (· * ·) (congrArg Ideal.logistic ?_) (image_rows x0 p l)) ?_
  · refine (excite_col _ _ _ _ _ _ _ _ p 0).trans ?_
    unfold Cert.SE.gam
    exact congrArg₂ (· + ·)
      (Finset.sum_congr rfl fun j _ => congrArg₂ (· * ·) (congrFun (shapeCast_self x4 _) _) (gate_at x0 x1 x2 x3 0 j))
      (congrFun (shapeCast_self x6 _) _)
  · refine (excite_col _ _ _ _ _ _ _ _ p 0).trans ?_
    unfold Cert.SE.bet
    exact congrArg₂ (· + ·)
      (Finset.sum_congr rfl fun j _ => congrArg₂ (· * ·) (congrFun (shapeCast_self x5 _) _) (gate_at x0 x1 x2 x3 0 j))
      (congrFun (shapeCast_self x7 _) _)

end

end Cert.KernelIdeal.Pay

end
-- ==== Proof.Result.lean ====
/-
  The result of the whole batch as one function of the five argument arrays.

  The image tensor `[64, 256, 32, 32]` is read as `[64, 256, 1024]` (each image's positions in row-major order); the
  first layer's `[16, 512]` weight splits along its columns into the half applied to the means and the half applied to
  the maxima, each used transposed (channel by unit); the second layer's `[512, 16]` weight splits along its rows into the
  half giving the scale and the half giving the shift, and its `[512]` bias likewise. Every image goes through
  `Cert.SE.out` with these pieces, and the `[64, 256, 1024]` outcome is read back as `[64, 256, 32, 32]`.
-/
import proofs.«181714_g2000503831619552_pallasbulk_628_2_alg».proof.Proof.Spec
import Idealize.ShloMosaic.Lib.Pipeline.Value
import Idealize.ShloMosaic.Lib.ValueIdx

noncomputable section

namespace Cert.SE

open Idealize.ShloMosaic Idealize.ShloMosaic.ValueIdx

/-- All 64 images at once: entry `(b, c, l)` is image `b`'s result at channel `c`, position `l`. -/
def whole (X : (⟨3, ![64, 256, 1024]⟩ : Shape).Idx → EReal) (A M : Fin 256 → Fin 16 → EReal) (b1 : Fin 16 → EReal)
    (Wg Wb : Fin 256 → Fin 16 → EReal) (bg bb : Fin 256 → EReal) : (⟨3, ![64, 256, 1024]⟩ : Shape).Idx → EReal :=
  fun i => out (fun c l => X (ix3 (i 0) c l)) A M b1 Wg Wb bg bb (i 1) (i 2)

theorem whole_apply (X : (⟨3, ![64, 256, 1024]⟩ : Shape).Idx → EReal) (A M : Fin 256 → Fin 16 → EReal) (b1 : Fin 16 → EReal)
    (Wg Wb : Fin 256 → Fin 16 → EReal) (bg bb : Fin 256 → EReal) (b : Fin 64) (c : Fin 256) (l : Fin 1024) :
    whole X A M b1 Wg Wb bg bb (ix3 b c l) = out (fun c l => X (ix3 b c l)) A M b1 Wg Wb bg bb c l := rfl

section
variable (h0 : (⟨4, ![64, 256, 32, 32]⟩ : Shape).ShapeCasts ⟨3, ![64, 256, 1024]⟩)
  (hsa : (⟨2, ![16, 512]⟩ : Shape).Slices ![0, 0] ⟨2, ![16, 256]⟩) (hsm : (⟨2, ![16, 512]⟩ : Shape).Slices ![0, 256] ⟨2, ![16, 256]⟩)
  (ht : (⟨2, ![16, 256]⟩ : Shape).Transposes [1, 0] ⟨2, ![256, 16]⟩)
  (hb1 : (⟨1, ![16]⟩ : Shape).ShapeCasts ⟨2, ![1, 16]⟩)
  (hsg : (⟨2, ![512, 16]⟩ : Shape).Slices ![0, 0] ⟨2, ![256, 16]⟩) (hsb : (⟨2, ![512, 16]⟩ : Shape).Slices ![256, 0] ⟨2, ![256, 16]⟩)
  (hbg : (⟨1, ![512]⟩ : Shape).Slices ![0] ⟨1, ![256]⟩) (hbb : (⟨1, ![512]⟩ : Shape).Slices ![256] ⟨1, ![256]⟩)
  (hout : (⟨3, ![64, 256, 1024]⟩ : Shape).ShapeCasts ⟨4, ![64, 256, 32, 32]⟩)
  (a0 : (⟨4, ![64, 256, 32, 32]⟩ : Shape).Idx → EReal) (a1 : (⟨2, ![16, 512]⟩ : Shape).Idx → EReal)
  (a2 : (⟨1, ![16]⟩ : Shape).Idx → EReal) (a3 : (⟨2, ![512, 16]⟩ : Shape).Idx → EReal) (a4 : (⟨1, ![512]⟩ : Shape).Idx → EReal)

/-- The images as `[64, 256, 1024]`. -/
def images : (⟨3, ![64, 256, 1024]⟩ : Shape).Idx → EReal := shapeCast ⟨3, ![64, 256, 1024]⟩ a0 h0
/-- The first layer's weights for the means and for the maxima, channel by unit. -/
def w1a : Fin 256 → Fin 16 → EReal := fun c j =>
  transpose ⟨2, ![256, 16]⟩ [1, 0] (extractStridedSlice ⟨2, ![16, 256]⟩ ![0, 0] a1 hsa) ht (ix2 c j)
def w1m : Fin 256 → Fin 16 → EReal := fun c j =>
  transpose ⟨2, ![256, 16]⟩ [1, 0] (extractStridedSlice ⟨2, ![16, 256]⟩ ![0, 256] a1 hsm) ht (ix2 c j)
/-- The first layer's bias, unit by unit. -/
def bias1 : Fin 16 → EReal := fun j => shapeCast ⟨2, ![1, 16]⟩ a2 hb1 (ix2 (0 : Fin 1) j)
/-- The second layer's weights for the scale and for the shift, channel by unit. -/
def w2g : Fin 256 → Fin 16 → EReal := fun c j => extractStridedSlice ⟨2, ![256, 16]⟩ ![0, 0] a3 hsg (ix2 c j)
def w2b : Fin 256 → Fin 16 → EReal := fun c j => extractStridedSlice ⟨2, ![256, 16]⟩ ![256, 0] a3 hsb (ix2 c j)
/-- The second layer's biases for the scale and for the shift, channel by channel. -/
def bias2g : Fin 256 → EReal := fun c => extractStridedSlice ⟨1, ![256]⟩ ![0] a4 hbg (ix1 c)
def bias2b : Fin 256 → EReal := fun c => extractStridedSlice ⟨1, ![256]⟩ ![256] a4 hbb (ix1 c)

/-- THE RESULT of the batch, as `[64, 256, 32, 32]`. -/
def result : (⟨4, ![64, 256, 32, 32]⟩ : Shape).Idx → EReal :=
  shapeCast ⟨4, ![64, 256, 32, 32]⟩
    (whole (images h0 a0) (w1a hsa ht a1) (w1m hsm ht a1) (bias1 hb1 a2) (w2g hsg a3) (w2b hsb a3) (bias2g hbg a4) (bias2b hbb a4)) hout

end

end Cert.SE

end
-- ==== Proof.KFinal.lean ====
/-
  From the kernel's blocks to its result array.

  The grid has one point per image. At point `t` the image window holds image `t` of the `[64, 256, 1024]` array, every
  weight and bias window holds its whole array, and the output window's block is image `t` of the output. So what point
  `t` writes back is block `t` of `Cert.SE.whole` of the arrays as the region finds them; the 64 blocks tile the output
  array, which therefore ends holding `Cert.SE.whole`; the arrays the region finds are the host operations' reshapes,
  slices and transposes of the arguments, and the one host operation after the region reads the output back as
  `[64, 256, 32, 32]`: the run ends with the result buffer at `Cert.SE.result` of the arguments.
-/
import proofs.«181714_g2000503831619552_pallasbulk_628_2_alg».proof.Proof.Gen.KernelIdeal.Frame
import proofs.«181714_g2000503831619552_pallasbulk_628_2_alg».proof.Proof.KPay
import proofs.«181714_g2000503831619552_pallasbulk_628_2_alg».proof.Proof.Result
import proofs.«181714_g2000503831619552_pallasbulk_628_2_alg».proof.Proof.LibKeepdims
import Idealize.ShloMosaic.Lib.Pipeline.Value
import Idealize.ShloMosaic.Lib.StableHlo.Run
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided once over the grid -/

/-- The image window and the output window sit at image `t`; -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)
/-- every other window stays at block (0, 0). -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The windows' blocks -/

/-- The image window's block at point `t` is image `t`. -/
theorem image_block (c : Dev nD) (t : Fin cfg0.N) (b : Fin 64) (hb : b.val = t.val) (u : Fin 1) (p : Fin 256) (l : Fin 1024) :
    (iblk m c 0 t : Vec Ideal S1x256x1024 .f32) (ix3 u p l) = (V m c main_v0 : S64x256x1024.Idx → EReal) (ix3 b p l) := by
  obtain ⟨e0, e1, e2⟩ := idx0 t
  unfold iblk
  rw [View.read_apply]
  refine congrArg (V m c main_v0 : S64x256x1024.Idx → EReal) (funext fun a => Fin.ext ?_)
  match a with
  | ⟨0, _⟩ => show win0_0.index t (0 : Fin 3) * 1 + 1 * u.val = b.val; rw [e0, hb]; omega
  | ⟨1, _⟩ => show win0_0.index t (1 : Fin 3) * 256 + 1 * p.val = p.val; rw [e1]; omega
  | ⟨2, _⟩ => show win0_0.index t (2 : Fin 3) * 1024 + 1 * l.val = l.val; rw [e2]; omega

/-- A window whose block is its whole array reads the array. -/
theorem block1 (c : Dev nD) (t : Fin cfg0.N) : (iblk m c 1 t : Vec Ideal S256x16 .f32) = (V m c main_v2 : S256x16.Idx → EReal) := by
  obtain ⟨e0, e1⟩ := idx1 t
  unfold iblk
  funext y
  rw [View.read_apply]
  refine congrArg (V m c main_v2 : S256x16.Idx → EReal) (funext fun a => Fin.ext ?_)
  match a with
  | ⟨0, _⟩ => show win0_1.index t (0 : Fin 2) * 256 + 1 * (y 0).val = (y 0).val; rw [e0]; omega
  | ⟨1, _⟩ => show win0_1.index t (1 : Fin 2) * 16 + 1 * (y 1).val = (y 1).val; rw [e1]; omega
theorem block2 (c : Dev nD) (t : Fin cfg0.N) : (iblk m c 2 t : Vec Ideal S256x16 .f32) = (V m c main_v4 : S256x16.Idx → EReal) := by
  obtain ⟨e0, e1⟩ := idx2 t
  unfold iblk
  funext y
  rw [View.read_apply]
  refine congrArg (V m c main_v4 : S256x16.Idx → EReal) (funext fun a => Fin.ext ?_)
  match a with
  | ⟨0, _⟩ => show win0_2.index t (0 : Fin 2) * 256 + 1 * (y 0).val = (y 0).val; rw [e0]; omega
  | ⟨1, _⟩ => show win0_2.index t (1 : Fin 2) * 16 + 1 * (y 1).val = (y 1).val; rw [e1]; omega
theorem block3 (c : Dev nD) (t : Fin cfg0.N) : (iblk m c 3 t : Vec Ideal S1x16 .f32) = (V m c main_v5 : S1x16.Idx → EReal) := by
  obtain ⟨e0, e1⟩ := idx3 t
  unfold iblk
  funext y
  rw [View.read_apply]
  refine congrArg (V m c main_v5 : S1x16.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega
theorem block4 (c : Dev nD) (t : Fin cfg0.N) : (iblk m c 4 t : Vec Ideal S256x16 .f32) = (V m c main_v6 : S256x16.Idx → EReal) := by
  obtain ⟨e0, e1⟩ := idx4 t
  unfold iblk
  funext y
  rw [View.read_apply]
  refine congrArg (V m c main_v6 : S256x16.Idx → EReal) (funext fun a => Fin.ext ?_)
  match a with
  | ⟨0, _⟩ => show win0_4.index t (0 : Fin 2) * 256 + 1 * (y 0).val = (y 0).val; rw [e0]; omega
  | ⟨1, _⟩ => show win0_4.index t (1 : Fin 2) * 16 + 1 * (y 1).val = (y 1).val; rw [e1]; omega
theorem block5 (c : Dev nD) (t : Fin cfg0.N) : (iblk m c 5 t : Vec Ideal S256x16 .f32) = (V m c main_v7 : S256x16.Idx → EReal) := by
  obtain ⟨e0, e1⟩ := idx5 t
  unfold iblk
  funext y
  rw [View.read_apply]
  refine congrArg (V m c main_v7 : S256x16.Idx → EReal) (funext fun a => Fin.ext ?_)
  match a with
  | ⟨0, _⟩ => show win0_5.index t (0 : Fin 2) * 256 + 1 * (y 0).val = (y 0).val; rw [e0]; omega
  | ⟨1, _⟩ => show win0_5.index t (1 : Fin 2) * 16 + 1 * (y 1).val = (y 1).val; rw [e1]; omega
theorem block6 (c : Dev nD) (t : Fin cfg0.N) : (iblk m c 6 t : Vec Ideal S256x1 .f32) = (V m c main_v9 : S256x1.Idx → EReal) := by
  obtain ⟨e0, e1⟩ := idx6 t
  unfold iblk
  funext y
  rw [View.read_apply]
  refine congrArg (V m c main_v9 : S256x1.Idx → EReal) (funext fun a => Fin.ext ?_)
  match a with
  | ⟨0, _⟩ => show win0_6.index t (0 : Fin 2) * 256 + 1 * (y 0).val = (y 0).val; rw [e0]; omega
  | ⟨1, _⟩ => show win0_6.index t (1 : Fin 2) * 1 + 1 * (y 1).val = (y 1).val; rw [e1]; omega
theorem block7 (c : Dev nD) (t : Fin cfg0.N) : (iblk m c 7 t : Vec Ideal S256x1 .f32) = (V m c main_v11 : S256x1.Idx → EReal) := by
  obtain ⟨e0, e1⟩ := idx7 t
  unfold iblk
  funext y
  rw [View.read_apply]
  refine congrArg (V m c main_v11 : S256x1.Idx → EReal) (funext fun a => Fin.ext ?_)
  match a with
  | ⟨0, _⟩ => show win0_7.index t (0 : Fin 2) * 256 + 1 * (y 0).val = (y 0).val; rw [e0]; omega
  | ⟨1, _⟩ => show win0_7.index t (1 : Fin 2) * 1 + 1 * (y 1).val = (y 1).val; rw [e1]; omega

/-! ## What a point writes back -/

/-- The output array the blocks are blocks of: every image through the specification, with the arrays as the region finds them. -/
abbrev G (c : Dev nD) : S64x256x1024.Idx → EReal :=
  Cert.SE.whole (V m c main_v0)
    (fun p j => (V m c main_v2 : S256x16.Idx → EReal) (ix2 p j)) (fun p j => (V m c main_v4 : S256x16.Idx → EReal) (ix2 p j))
    (fun j => (V m c main_v5 : S1x16.Idx → EReal) (ix2 (0 : Fin 1) j))
    (fun p j => (V m c main_v6 : S256x16.Idx → EReal) (ix2 p j)) (fun p j => (V m c main_v7 : S256x16.Idx → EReal) (ix2 p j))
    (fun p => (V m c main_v9 : S256x1.Idx → EReal) (ix2 p (0 : Fin 1))) (fun p => (V m c main_v11 : S256x1.Idx → EReal) (ix2 p (0 : Fin 1)))

theorem hN : cfg0.N = 64 := N_0

/-- Point `t` writes back block `t` of `G`. -/
theorem flushed_eq (c : Dev nD) (t : Fin cfg0.N) :
    (dats m 0 c).flushed 8 t = ((cfg0.win 8).blk t).view.read (Elt Ideal) (G m c) := by
  have hlt : t.val < 64 := by have := t.isLt; have h := hN; omega
  obtain ⟨e0, e1, e2⟩ := idx8 t
  show (cfg0.win 8).cut (grid0.coords t) ((dats m 0 c).after 8 t) = _
  rw [after0_8]
  unfold out0_8
  rw [View.canon_unit_zero hz3]
  simp only [View.ld_unit_zero (S := S1x256x1024) hz3, View.ld_unit_zero (S := S256x16) hz2, View.ld_unit_zero (S := S1x16) hz2,
    View.ld_unit_zero (S := S256x1) hz2]
  rw [block1 m c t, block2 m c t, block3 m c t, block4 m c t, block5 m c t, block6 m c t, block7 m c t]
  funext y
  obtain ⟨u, p, l, rfl⟩ : ∃ (u : Fin 1) (p : Fin 256) (l : Fin 1024), y = ix3 u p l := ⟨y 0, y 1, y 2, eq_ix3 y⟩
  have hemb : ((cfg0.win 8).blk t).view.emb (ix3 u p l) = (ix3 (⟨t.val, hlt⟩ : Fin 64) p l : S64x256x1024.Idx) := by
    funext a
    apply Fin.ext
    match a with
    | ⟨0, _⟩ => show win0_8.index t (0 : Fin 3) * 1 + 1 * u.val = t.val; rw [e0]; omega
    | ⟨1, _⟩ => show win0_8.index t (1 : Fin 3) * 256 + 1 * p.val = p.val; rw [e1]; omega
    | ⟨2, _⟩ => show win0_8.index t (2 : Fin 3) * 1024 + 1 * l.val = l.val; rw [e2]; omega
  show k0_pay1 (k0_pay2 (iblk m c 0 t)) (k0_pay3 (iblk m c 0 t) (V m c main_v2) (V m c main_v4) (V m c main_v5))
      (k0_pay4 (iblk m c 0 t) (V m c main_v2) (V m c main_v4) (V m c main_v5) (V m c main_v6)) (V m c main_v9) (V m c main_v7) (V m c main_v11)
      (ix3 u p l) = G m c (((cfg0.win 8).blk t).view.emb (ix3 u p l))
  rw [hemb]
  refine (Cert.KernelIdeal.Pay.stored_at _ _ _ _ _ _ _ _ u p l).trans ?_
  exact congrArg (fun X => Cert.SE.out X _ _ _ _ _ _ _ p l)
    (funext fun c' => funext fun l' => image_block m c t ⟨t.val, hlt⟩ rfl 0 c' l')

/-! ## The blocks tile the output array -/

theorem mem_block (t : Fin cfg0.N) (i : S64x256x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v12).slice (win0_8.rect t)).set ↔ _
  rw [View.set_slice_whole, Rect.mem_set_unit]
  exact Iff.rfl

/-- The output array after the run is `G`. -/
theorem final (c : Dev nD) : (dats m 0 c).arrAt 8 cfg0.N = G m c :=
  (dats m 0 c).arrAt_eq_of_cover 8 (G m c) (fun t _ => flushed_eq m c t) fun i => by
    have hi0 : (i 0).val < 64 := (i 0).isLt
    have hi1 : (i 1).val < 256 := (i 1).isLt
    have hi2 : (i 2).val < 1024 := (i 2).isLt
    have h64 : cfg0.N = 64 := hN
    have ht : (i 0).val < cfg0.N := by omega
    obtain ⟨e0', e1, e2⟩ := idx8 ⟨(i 0).val, ht⟩
    have e0 : win0_8.index ⟨(i 0).val, ht⟩ (0 : Fin 3) = (i 0).val := e0'
    refine ⟨⟨(i 0).val, ht⟩, flush0_8 _, ?_⟩
    rw [mem_block]
    intro a
    match a with
    | ⟨0, _⟩ => show win0_8.index ⟨(i 0).val, ht⟩ (0 : Fin 3) * 1 ≤ (i 0).val ∧ (i 0).val < win0_8.index ⟨(i 0).val, ht⟩ (0 : Fin 3) * 1 + 1; rw [e0]; omega
    | ⟨1, _⟩ => show win0_8.index ⟨(i 0).val, ht⟩ (1 : Fin 3) * 256 ≤ (i 1).val ∧ (i 1).val < win0_8.index ⟨(i 0).val, ht⟩ (1 : Fin 3) * 256 + 256; rw [e1]; omega
    | ⟨2, _⟩ => show win0_8.index ⟨(i 0).val, ht⟩ (2 : Fin 3) * 1024 ≤ (i 2).val ∧ (i 2).val < win0_8.index ⟨(i 0).val, ht⟩ (2 : Fin 3) * 1024 + 1024; rw [e2]; omega

/-! ## The arrays the region finds, from the arguments -/

theorem images_eq (c : Dev nD) : (V m c main_v0 : S64x256x1024.Idx → EReal)
    = Cert.SE.images Gen.shapeCasts_S64x256x32x32_S64x256x1024 (m ((c : Thread nD τ).loc main_arg0)) := by
  show StableHlo.after hostOps0 (fun b => m (c, b)) (Proc.devRef .tc main_v0) = _
  after_results <;> rfl

theorem w1a_eq (c : Dev nD) : (fun (p : Fin 256) (j : Fin 16) => (V m c main_v2 : S256x16.Idx → EReal) (ix2 p j))
    = Cert.SE.w1a Gen.slices_S16x512_S16x256_0_0 Gen.transposes_S16x256_S256x16_1_0 (m ((c : Thread nD τ).loc main_arg1)) := by
  have e : (V m c main_v2 : S256x16.Idx → EReal) = transpose S256x16 [1, 0] (extractStridedSlice S16x256 ![0, 0] (m ((c : Thread nD τ).loc main_arg1)) Gen.slices_S16x512_S16x256_0_0) Gen.transposes_S16x256_S256x16_1_0 := by
    show StableHlo.after hostOps0 (fun b => m (c, b)) (Proc.devRef .tc main_v2) = _
    after_results <;> rfl
  rw [e]; rfl

theorem w1m_eq (c : Dev nD) : (fun (p : Fin 256) (j : Fin 16) => (V m c main_v4 : S256x16.Idx → EReal) (ix2 p j))
    = Cert.SE.w1m Gen.slices_S16x512_S16x256_0_256 Gen.transposes_S16x256_S256x16_1_0 (m ((c : Thread nD τ).loc main_arg1)) := by
  have e : (V m c main_v4 : S256x16.Idx → EReal) = transpose S256x16 [1, 0] (extractStridedSlice S16x256 ![0, 256] (m ((c : Thread nD τ).loc main_arg1)) Gen.slices_S16x512_S16x256_0_256) Gen.transposes_S16x256_S256x16_1_0 := by
    show StableHlo.after hostOps0 (fun b => m (c, b)) (Proc.devRef .tc main_v4) = _
    after_results <;> rfl
  rw [e]; rfl

theorem bias1_eq (c : Dev nD) : (fun (j : Fin 16) => (V m c main_v5 : S1x16.Idx → EReal) (ix2 (0 : Fin 1) j))
    = Cert.SE.bias1 Gen.shapeCasts_S16_S1x16 (m ((c : Thread nD τ).loc main_arg2)) := by
  have e : (V m c main_v5 : S1x16.Idx → EReal) = shapeCast S1x16 (m ((c : Thread nD τ).loc main_arg2)) Gen.shapeCasts_S16_S1x16 := by
    show StableHlo.after hostOps0 (fun b => m (c, b)) (Proc.devRef .tc main_v5) = _
    after_results <;> rfl
  rw [e]; rfl

theorem w2g_eq (c : Dev nD) : (fun (p : Fin 256) (j : Fin 16) => (V m c main_v6 : S256x16.Idx → EReal) (ix2 p j))
    = Cert.SE.w2g Gen.slices_S512x16_S256x16_0_0 (m ((c : Thread nD τ).loc main_arg3)) := by
  have e : (V m c main_v6 : S256x16.Idx → EReal) = extractStridedSlice S256x16 ![0, 0] (m ((c : Thread nD τ).loc main_arg3)) Gen.slices_S512x16_S256x16_0_0 := by
    show StableHlo.after hostOps0 (fun b => m (c, b)) (Proc.devRef .tc main_v6) = _
    after_results <;> rfl
  rw [e]; rfl

theorem w2b_eq (c : Dev nD) : (fun (p : Fin 256) (j : Fin 16) => (V m c main_v7 : S256x16.Idx → EReal) (ix2 p j))
    = Cert.SE.w2b Gen.slices_S512x16_S256x16_256_0 (m ((c : Thread nD τ).loc main_arg3)) := by
  have e : (V m c main_v7 : S256x16.Idx → EReal) = extractStridedSlice S256x16 ![256, 0] (m ((c : Thread nD τ).loc main_arg3)) Gen.slices_S512x16_S256x16_256_0 := by
    show StableHlo.after hostOps0 (fun b => m (c, b)) (Proc.devRef .tc main_v7) = _
    after_results <;> rfl
  rw [e]; rfl

theorem bias2g_eq (c : Dev nD) : (fun (p : Fin 256) => (V m c main_v9 : S256x1.Idx → EReal) (ix2 p (0 : Fin 1)))
    = Cert.SE.bias2g Gen.slices_S512_S256_0 (m ((c : Thread nD τ).loc main_arg4)) := by
  have e : (V m c main_v9 : S256x1.Idx → EReal) = shapeCast S256x1 (extractStridedSlice S256 ![0] (m ((c : Thread nD τ).loc main_arg4)) Gen.slices_S512_S256_0) Gen.shapeCasts_S256_S256x1 := by
    show StableHlo.after hostOps0 (fun b => m (c, b)) (Proc.devRef .tc main_v9) = _
    after_results <;> rfl
  rw [e]; exact funext fun p => shapeCast_a_a1_apply _ _ p 0

theorem bias2b_eq (c : Dev nD) : (fun (p : Fin 256) => (V m c main_v11 : S256x1.Idx → EReal) (ix2 p (0 : Fin 1)))
    = Cert.SE.bias2b Gen.slices_S512_S256_256 (m ((c : Thread nD τ).loc main_arg4)) := by
  have e : (V m c main_v11 : S256x1.Idx → EReal) = shapeCast S256x1 (extractStridedSlice S256 ![256] (m ((c : Thread nD τ).loc main_arg4)) Gen.slices_S512_S256_256) Gen.shapeCasts_S256_S256x1 := by
    show StableHlo.after hostOps0 (fun b => m (c, b)) (Proc.devRef .tc main_v11) = _
    after_results <;> rfl
  rw [e]; exact funext fun p => shapeCast_a_a1_apply _ _ p 0

/-- The output array after the run, from the arguments. -/
theorem final_args (c : Dev nD) : (dats m 0 c).arrAt 8 cfg0.N
    = Cert.SE.whole (Cert.SE.images Gen.shapeCasts_S64x256x32x32_S64x256x1024 (m ((c : Thread nD τ).loc main_arg0)))
        (Cert.SE.w1a Gen.slices_S16x512_S16x256_0_0 Gen.transposes_S16x256_S256x16_1_0 (m ((c : Thread nD τ).loc main_arg1)))
        (Cert.SE.w1m Gen.slices_S16x512_S16x256_0_256 Gen.transposes_S16x256_S256x16_1_0 (m ((c : Thread nD τ).loc main_arg1)))
        (Cert.SE.bias1 Gen.shapeCasts_S16_S1x16 (m ((c : Thread nD τ).loc main_arg2)))
        (Cert.SE.w2g Gen.slices_S512x16_S256x16_0_0 (m ((c : Thread nD τ).loc main_arg3))) (Cert.SE.w2b Gen.slices_S512x16_S256x16_256_0 (m ((c : Thread nD τ).loc main_arg3)))
        (Cert.SE.bias2g Gen.slices_S512_S256_0 (m ((c : Thread nD τ).loc main_arg4))) (Cert.SE.bias2b Gen.slices_S512_S256_256 (m ((c : Thread nD τ).loc main_arg4))) := by
  rw [final m c]
  show Cert.SE.whole _ _ _ _ _ _ _ _ = _
  rw [images_eq m c, w1a_eq m c, w1m_eq m c, bias1_eq m c, w2g_eq m c, w2b_eq m c, bias2g_eq m c, bias2b_eq m c]

/-! ## The host operation after the region, and the run -/

/-- The one operation after the region reads the output array back as `[64, 256, 32, 32]`, whatever the arrays hold. -/
theorem tail_of (c : Dev nD) (A : (w : Fin 9) → Buf (Elt Ideal) (((cfgs 0).spec w).arr.view.loc (c.tc : Thread nD τ))) :
    StableHlo.after hostOps1 (Pipeline.withArrays (cfgs 0).spec c (V0 m c) A) (Proc.devRef .tc main_v13)
      = shapeCast S64x256x32x32 (A 8) Gen.shapeCasts_S64x256x1024_S64x256x32x32 := by
  after_results
  rw [Pipeline.withArrays_arr (cfgs 0).spec launch0.win.arr_inj c (V0 m c) A 8]
  rfl

/-- The result buffer after the run is the specification's result of the arguments. -/
theorem result_eq (c : Dev nD) : Pipeline.afterTail₀ cfgs (dats m) 0 (V0 m) [hostOps1] c main_v13
    = Cert.SE.result Gen.shapeCasts_S64x256x32x32_S64x256x1024 Gen.slices_S16x512_S16x256_0_0 Gen.slices_S16x512_S16x256_0_256
        Gen.transposes_S16x256_S256x16_1_0 Gen.shapeCasts_S16_S1x16 Gen.slices_S512x16_S256x16_0_0 Gen.slices_S512x16_S256x16_256_0
        Gen.slices_S512_S256_0 Gen.slices_S512_S256_256 Gen.shapeCasts_S64x256x1024_S64x256x32x32
        (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  refine (tail_of m c _).trans ?_
  unfold Cert.SE.result
  exact congrArg (fun A => shapeCast S64x256x32x32 A Gen.shapeCasts_S64x256x1024_S64x256x32x32) (final_args m c)

/-- THE RUN, READ: every weakly fair execution ends with the result buffer at the specification's result of the
    arguments, the arguments unchanged. -/
theorem run : θ_run defs (onTc (τ := τ) (main (F := Ideal))) ⟨m, fun _ => 0, ρ⟩ fun r => ∀ c : Dev nD,
      r.2.mem ((c.tc : Thread nD τ).loc main_v13)
        = Cert.SE.result Gen.shapeCasts_S64x256x32x32_S64x256x1024 Gen.slices_S16x512_S16x256_0_0 Gen.slices_S16x512_S16x256_0_256
            Gen.transposes_S16x256_S256x16_1_0 Gen.shapeCasts_S16_S1x16 Gen.slices_S512x16_S256x16_0_0 Gen.slices_S512x16_S256x16_256_0
            Gen.slices_S512_S256_0 Gen.slices_S512_S256_256 Gen.shapeCasts_S64x256x1024_S64x256x32x32
            (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.RPay.lean ====
/-
  What the reference's body leaves in its output block, read at one index.

  The body works on four images at once: its block `x0` is `[4, 256, 1024]`; the first-layer weight blocks `x1`, `x2` are
  `[256, 16]` and the bias `x3` is the row `[1, 16]`, as in the kernel; the second-layer weight blocks `x4`, `x5` are the
  TRANSPOSED `[16, 256]` and the biases `x6`, `x7` are rows `[1, 256]`. The pooled statistics are `[4, 256]` matrices, one
  row per image; the hidden layer is the sum of two matrix products plus the bias row, the scale and the shift are
  matrix products of the gated `[4, 16]` matrix with the transposed weights plus a bias row, each then given a trailing
  unit axis and repeated along the 1024 positions. Read at `(q, c, l)` the stored value is `Cert.SE.out` of image `q`
  of the block: the hidden layer's two separate sums are one sum of pairwise sums, and the factors of the second
  layer's products commute.
-/
import proofs.«181714_g2000503831619552_pallasbulk_628_2_alg».proof.Proof.Gen.ReferenceIdeal.Skeleton
import proofs.«181714_g2000503831619552_pallasbulk_628_2_alg».proof.Proof.Spec
import proofs.«181714_g2000503831619552_pallasbulk_628_2_alg».proof.Proof.LibLastAxis
import proofs.«181714_g2000503831619552_pallasbulk_628_2_alg».proof.Proof.LibPairLayout
import proofs.«181714_g2000503831619552_pallasbulk_628_2_alg».proof.Proof.LibDense
import Idealize.ShloMosaic.Lib.ValueLayout
import Idealize.ShloMosaic.Lib.Pipeline.Value

noncomputable section

open scoped BigOperators

namespace Cert.ReferenceIdeal.Pay

open Idealize.ShloMosaic Idealize.ShloMosaic.ValueIdx Cert.ReferenceIdeal Cert.ReferenceIdeal.Gen

/-- The first layer's product `[4, 256] × [256, 16]` into the zero accumulator, at `(q, j)`. -/
theorem first_product (a : FVec Ideal S4x256 .f32) (w : FVec Ideal S256x16 .f32) (q : Fin 4) (j : Fin 16) :
    matmul dot_S4x256_S256x16_S4x16_1_0_0_1_n_n none a w (constant S4x16 .f32 0x00000000#32) (ix2 q j)
      = ∑ c : Fin 256, a (ix2 q c) * w (ix2 c j) :=
  matmul_zero_plain_apply dot_S4x256_S256x16_S4x16_1_0_0_1_n_n none rfl rfl
    (fun _ _ => rfl)
    (fun i k => DotDims.lhsIdx_val_of_single (d := dot_S4x256_S256x16_S4x16_1_0_0_1_n_n) (cl := 1) rfl i k)
    (fun i k => DotDims.rhsIdx_val_of_single (d := dot_S4x256_S256x16_S4x16_1_0_0_1_n_n) (cr := 0) rfl i k)
    (fun _ _ => rfl) a w q j

/-- The second layer's product `[4, 16] × [16, 256]` into the zero accumulator, at `(q, c)`. -/
theorem second_product (g : FVec Ideal S4x16 .f32) (w : FVec Ideal S16x256 .f32) (q : Fin 4) (c : Fin 256) :
    matmul dot_S4x16_S16x256_S4x256_1_0_0_1_n_n none g w (constant S4x256 .f32 0x00000000#32) (ix2 q c)
      = ∑ j : Fin 16, g (ix2 q j) * w (ix2 j c) :=
  matmul_zero_plain_apply dot_S4x16_S16x256_S4x256_1_0_0_1_n_n none rfl rfl
    (fun _ _ => rfl)
    (fun i k => DotDims.lhsIdx_val_of_single (d := dot_S4x16_S16x256_S4x256_1_0_0_1_n_n) (cl := 1) rfl i k)
    (fun i k => DotDims.rhsIdx_val_of_single (d := dot_S4x16_S16x256_S4x256_1_0_0_1_n_n) (cr := 0) rfl i k)
    (fun _ _ => rfl) g w q c

/-- A sum over the positions scaled by a splat constant: at `(q, c)` the sum of channel `c` of image `q` times the constant. -/
theorem mean_mat (x : FVec Ideal S4x256x1024 .f32) (w : BitVec 32) (hr : S4x256x1024.Reduces [2] S4x256)
    (hφ : FKind.Formats .f32) (hacc : (0x00000000#32 : BitVec 32) = FKind.add.neutral .f32 hφ) (q : Fin 4) (c : Fin 256) :
    mulf (multiReduction .add [2] S4x256 x 0x00000000#32 hr hφ hacc) (broadcast S4x256 (Scalar.ofBits .f32 w)) (ix2 q c)
      = (∑ l : Fin 1024, x (ix3 q c l)) * Ideal.ofBits .f32 w :=
  congrArg (· * Ideal.ofBits .f32 w)
    ((Ideal.multiReduction_add_single x _ hr hφ hacc (ix2 q c)).trans
      (Finset.sum_congr rfl fun k _ => congrArg x (Cert.LibLastAxis.lift_last3 hr q c k)))

/-- A maximum over the positions: at `(q, c)` the fold of `max` over channel `c` of image `q`, from the seed's value. -/
theorem max_mat (x : FVec Ideal S4x256x1024 .f32) (hr : S4x256x1024.Reduces [2] S4x256)
    (hφ : FKind.Formats .f32) (hacc : (0xFF800000#32 : BitVec 32) = FKind.maximumf.neutral .f32 hφ) (q : Fin 4) (c : Fin 256) :
    multiReduction .maximumf [2] S4x256 x 0xFF800000#32 hr hφ hacc (ix2 q c)
      = (Finset.univ : Finset (Fin 1024)).fold max (Ideal.ofBits .f32 0xFF800000#32) (fun l => x (ix3 q c l)) :=
  (Ideal.multiReduction_maximumf_single x _ hr hφ hacc (ix2 q c)).trans
    (congrArg (fun f => Finset.fold max (Ideal.ofBits .f32 0xFF800000#32) f (Finset.univ : Finset (Fin 1024)))
      (funext fun k => congrArg x (Cert.LibLastAxis.lift_last3 hr q c k)))

/-- The hidden layer before the gate: two products added, plus the bias row repeated along the four images. -/
theorem hidden_mat (av mv : FVec Ideal S4x256 .f32) (wa wm : FVec Ideal S256x16 .f32) (b : FVec Ideal S1x16 .f32)
    (hb : S1x16.Broadcasts S4x16) (q : Fin 4) (j : Fin 16) :
    addf (addf (matmul dot_S4x256_S256x16_S4x16_1_0_0_1_n_n none av wa (constant S4x16 .f32 0x00000000#32))
        (matmul dot_S4x256_S256x16_S4x16_1_0_0_1_n_n none mv wm (constant S4x16 .f32 0x00000000#32)))
      (broadcastTo S4x16 b hb) (ix2 q j)
      = ((∑ c : Fin 256, av (ix2 q c) * wa (ix2 c j)) + (∑ c : Fin 256, mv (ix2 q c) * wm (ix2 c j))) + b (ix2 (0 : Fin 1) j) :=
  congrArg₂ (· + ·) (congrArg₂ (· + ·) (first_product av wa q j) (first_product mv wm q j)) (broadcastTo_1b_ab_apply b hb q j)

/-- One affine map of the gated matrix: its product with a transposed weight block plus a bias row repeated along the images. -/
theorem excite_mat (g : FVec Ideal S4x16 .f32) (w : FVec Ideal S16x256 .f32) (b : FVec Ideal S1x256 .f32)
    (hb : S1x256.Broadcasts S4x256) (q : Fin 4) (c : Fin 256) :
    addf (matmul dot_S4x16_S16x256_S4x256_1_0_0_1_n_n none g w (constant S4x256 .f32 0x00000000#32)) (broadcastTo S4x256 b hb) (ix2 q c)
      = (∑ j : Fin 16, g (ix2 q j) * w (ix2 j c)) + b (ix2 (0 : Fin 1) c) :=
  congrArg₂ (· + ·) (second_product g w q c) (broadcastTo_1b_ab_apply b hb q c)

/-- The last step: a scale matrix and a shift matrix, each given a trailing unit axis and repeated along the 1024 positions,
    `scale · x + shift`. -/
theorem affine_block (s t : FVec Ideal S4x256 .f32) (x : FVec Ideal S4x256x1024 .f32)
    (hc : S4x256.ShapeCasts S4x256x1) (hb : S4x256x1.Broadcasts S4x256x1024) (q : Fin 4) (c : Fin 256) (l : Fin 1024) :
    addf (mulf (broadcastTo S4x256x1024 (shapeCast S4x256x1 s hc) hb) x) (broadcastTo S4x256x1024 (shapeCast S4x256x1 t hc) hb) (ix3 q c l)
      = s (ix2 q c) * x (ix3 q c l) + t (ix2 q c) :=
  congrArg₂ (· + ·)
    (congrArg (· * x (ix3 q c l)) ((broadcastTo_ab1_abc_apply _ hb q c l).trans (shapeCast_ab_ab1_apply s hc q c 0)))
    ((broadcastTo_ab1_abc_apply _ hb q c l).trans (shapeCast_ab_ab1_apply t hc q c 0))

section
variable (x0 : Vec Ideal S4x256x1024 .f32) (x1 x2 : Vec Ideal S256x16 .f32) (x3 : Vec Ideal S1x16 .f32)
  (x4 x5 : Vec Ideal S16x256 .f32) (x6 x7 : Vec Ideal S1x256 .f32)

/-- Image `q` of the block, the first-layer weights and bias, the second-layer weights read transposed, and the second-layer
    biases, as plain functions of channel, unit and position. -/
abbrev img (q : Fin 4) : Fin 256 → Fin 1024 → EReal := fun c l => x0 (ix3 q c l)
abbrev mat (x : Vec Ideal S256x16 .f32) : Fin 256 → Fin 16 → EReal := fun c j => x (ix2 c j)
abbrev row (x : Vec Ideal S1x16 .f32) : Fin 16 → EReal := fun j => x (ix2 (0 : Fin 1) j)
abbrev matT (x : Vec Ideal S16x256 .f32) : Fin 256 → Fin 16 → EReal := fun c j => x (ix2 j c)
abbrev rowC (x : Vec Ideal S1x256 .f32) : Fin 256 → EReal := fun c => x (ix2 (0 : Fin 1) c)

/-- The gated hidden matrix at image `q`, unit `j`. -/
theorem gate_at (q : Fin 4) (j : Fin 16) :
    k0_pay3 x0 x1 x2 x3 (ix2 q j) = Cert.SE.gate (img x0 q) (mat x1) (mat x2) (row x3) j := by
  unfold k0_pay3 k0_pay2
  refine (Cert.SE.mish_vec _ _).trans (congrArg Cert.SE.mish ?_)
  refine (hidden_mat _ _ _ _ _ _ q j).trans ?_
  refine Eq.trans ?_ (Cert.SE.hid_two_sums (img x0 q) (mat x1) (mat x2) (row x3) j)
  refine congrArg₂ (· + ·) (congrArg₂ (· + ·)
    (Finset.sum_congr rfl fun c _ => congrArg₂ (· * ·) ?_ ?_) (Finset.sum_congr rfl fun c _ => congrArg₂ (· * ·) ?_ ?_)) ?_
  · refine (mean_mat _ _ _ _ _ q c).trans ?_
    unfold Cert.SE.avg
    exact congrArg (· * _) (Finset.sum_congr rfl fun l _ => congrFun (shapeCast_self x0 _) _)
  · exact congrFun (shapeCast_self x1 _) _
  · refine (max_mat _ _ _ _ q c).trans ?_
    unfold Cert.SE.mx
    exact congrArg (fun f => Finset.fold max _ f Finset.univ) (funext fun l => congrFun (shapeCast_self x0 _) _)
  · exact congrFun (shapeCast_self x2 _) _
  · exact congrFun (shapeCast_self x3 _) _

/-- THE STORED BLOCK at `(q, c, l)`: the specification, for image `q` of the block, at channel `c` and position `l`. -/
theorem stored_at (q : Fin 4) (c : Fin 256) (l : Fin 1024) :
    k0_pay1 (k0_pay2 x0) (k0_pay3 x0 x1 x2 x3) (k0_pay4 x0 x1 x2 x3 x4) (k0_pay5 x6) x5 x7 (ix3 q c l)
      = Cert.SE.out (img x0 q) (mat x1) (mat x2) (row x3) (matT x4) (matT x5) (rowC x6) (rowC x7) c l := by
  unfold k0_pay1 k0_pay4 k0_pay5 k0_pay2
  refine (affine_block _ _ _ _ _ q c l).trans ?_
  unfold Cert.SE.out
  refine congrArg₂ (· + ·) (congrArg₂ (· * ·) (congrArg Ideal.logistic ?_) (congrFun (shapeCast_self x0 _) _)) ?_
  · refine (excite_mat _ _ _ _ q c).trans ?_
    refine Eq.trans ?_ (Cert.SE.gam_swapped (img x0 q) (mat x1) (mat x2) (row x3) (matT x4) (rowC x6) c)
    exact congrArg₂ (· + ·)
      (Finset.sum_congr rfl fun j _ => congrArg₂ (· * ·) (gate_at x0 x1 x2 x3 q j) (congrFun (shapeCast_self x4 _) _))
      (congrFun (shapeCast_self x6 _) _)
  · refine (excite_mat _ _ _ _ q c).trans ?_
    refine Eq.trans ?_ (Cert.SE.bet_swapped (img x0 q) (mat x1) (mat x2) (row x3) (matT x5) (rowC x7) c)
    exact congrArg₂ (· + ·)
      (Finset.sum_congr rfl fun j _ => congrArg₂ (· * ·) (gate_at x0 x1 x2 x3 q j) (congrFun (shapeCast_self x5 _) _))
      (congrFun (shapeCast_self x7 _) _)

end

end Cert.ReferenceIdeal.Pay

end
-- ==== Proof.RFinal.lean ====
/-
  From the reference's blocks to its result array.

  The grid has one point per group of four images. At point `t` the image window holds images `4t … 4t + 3` of the
  `[64, 256, 1024]` array, every weight and bias window holds its whole array, and the output window's block is images
  `4t … 4t + 3` of the output. So what point `t` writes back is block `t` of `Cert.SE.whole` of the arrays as the region
  finds them — the second layer's weights read transposed, its biases read as rows —; the 16 blocks tile the output array;
  the arrays the region finds are the host operations' reshapes, slices and transposes of the arguments, and the one host
  operation after the region reads the output back as `[64, 256, 32, 32]`: the run ends with the result buffer at
  `Cert.SE.result` of the arguments.
-/
import proofs.«181714_g2000503831619552_pallasbulk_628_2_alg».proof.Proof.Gen.ReferenceIdeal.Frame
import proofs.«181714_g2000503831619552_pallasbulk_628_2_alg».proof.Proof.RPay
import proofs.«181714_g2000503831619552_pallasbulk_628_2_alg».proof.Proof.Result
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.ReferenceIdeal.Final

open Cert.ReferenceIdeal Cert.ReferenceIdeal.Gen
open Idealize.ShloMosaic Idealize.ShloMosaic.TcCoe Idealize.ShloMosaic.ValueIdx Idealize.SL.Sem Idealize.ShloMosaic.Tactic
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided once over the grid -/

/-- The image window and the output window sit at group `t`; -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)
/-- every other window stays at block (0, 0). -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The windows' blocks -/

/-- The image window's block at point `t` is images `4t … 4t + 3`. -/
theorem image_block (c : Dev nD) (t : Fin cfg0.N) (q : Fin 4) (b : Fin 64) (hb : b.val = 4 * t.val + q.val) (p : Fin 256) (l : Fin 1024) :
    (iblk m c 0 t : Vec Ideal S4x256x1024 .f32) (ix3 q p l) = (V m c main_v13 : S64x256x1024.Idx → EReal) (ix3 b p l) := by
  obtain ⟨e0, e1, e2⟩ := idx0 t
  unfold iblk
  rw [View.read_apply]
  refine congrArg (V m c main_v13 : S64x256x1024.Idx → EReal) (funext fun a => Fin.ext ?_)
  match a with
  | ⟨0, _⟩ => show win0_0.index t (0 : Fin 3) * 4 + 1 * q.val = b.val; rw [e0, hb]; omega
  | ⟨1, _⟩ => show win0_0.index t (1 : Fin 3) * 256 + 1 * p.val = p.val; rw [e1]; omega
  | ⟨2, _⟩ => show win0_0.index t (2 : Fin 3) * 1024 + 1 * l.val = l.val; rw [e2]; omega

/-- A window whose block is its whole array reads the array. -/
theorem block1 (c : Dev nD) (t : Fin cfg0.N) : (iblk m c 1 t : Vec Ideal S256x16 .f32) = (V m c main_v1 : S256x16.Idx → EReal) := by
  obtain ⟨e0, e1⟩ := idx1 t
  unfold iblk
  funext y
  rw [View.read_apply]
  refine congrArg (V m c main_v1 : S256x16.Idx → EReal) (funext fun a => Fin.ext ?_)
  match a with
  | ⟨0, _⟩ => show win0_1.index t (0 : Fin 2) * 256 + 1 * (y 0).val = (y 0).val; rw [e0]; omega
  | ⟨1, _⟩ => show win0_1.index t (1 : Fin 2) * 16 + 1 * (y 1).val = (y 1).val; rw [e1]; omega
theorem block2 (c : Dev nD) (t : Fin cfg0.N) : (iblk m c 2 t : Vec Ideal S256x16 .f32) = (V m c main_v3 : S256x16.Idx → EReal) := by
  obtain ⟨e0, e1⟩ := idx2 t
  unfold iblk
  funext y
  rw [View.read_apply]
  refine congrArg (V m c main_v3 : S256x16.Idx → EReal) (funext fun a => Fin.ext ?_)
  match a with
  | ⟨0, _⟩ => show win0_2.index t (0 : Fin 2) * 256 + 1 * (y 0).val = (y 0).val; rw [e0]; omega
  | ⟨1, _⟩ => show win0_2.index t (1 : Fin 2) * 16 + 1 * (y 1).val = (y 1).val; rw [e1]; omega
theorem block3 (c : Dev nD) (t : Fin cfg0.N) : (iblk m c 3 t : Vec Ideal S1x16 .f32) = (V m c main_v4 : S1x16.Idx → EReal) := by
  obtain ⟨e0, e1⟩ := idx3 t
  unfold iblk
  funext y
  rw [View.read_apply]
  refine congrArg (V m c main_v4 : S1x16.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega
theorem block4 (c : Dev nD) (t : Fin cfg0.N) : (iblk m c 4 t : Vec Ideal S16x256 .f32) = (V m c main_v6 : S16x256.Idx → EReal) := by
  obtain ⟨e0, e1⟩ := idx4 t
  unfold iblk
  funext y
  rw [View.read_apply]
  refine congrArg (V m c main_v6 : S16x256.Idx → EReal) (funext fun a => Fin.ext ?_)
  match a with
  | ⟨0, _⟩ => show win0_4.index t (0 : Fin 2) * 16 + 1 * (y 0).val = (y 0).val; rw [e0]; omega
  | ⟨1, _⟩ => show win0_4.index t (1 : Fin 2) * 256 + 1 * (y 1).val = (y 1).val; rw [e1]; omega
theorem block5 (c : Dev nD) (t : Fin cfg0.N) : (iblk m c 5 t : Vec Ideal S16x256 .f32) = (V m c main_v8 : S16x256.Idx → EReal) := by
  obtain ⟨e0, e1⟩ := idx5 t
  unfold iblk
  funext y
  rw [View.read_apply]
  refine congrArg (V m c main_v8 : S16x256.Idx → EReal) (funext fun a => Fin.ext ?_)
  match a with
  | ⟨0, _⟩ => show win0_5.index t (0 : Fin 2) * 16 + 1 * (y 0).val = (y 0).val; rw [e0]; omega
  | ⟨1, _⟩ => show win0_5.index t (1 : Fin 2) * 256 + 1 * (y 1).val = (y 1).val; rw [e1]; omega
theorem block6 (c : Dev nD) (t : Fin cfg0.N) : (iblk m c 6 t : Vec Ideal S1x256 .f32) = (V m c main_v10 : S1x256.Idx → EReal) := by
  obtain ⟨e0, e1⟩ := idx6 t
  unfold iblk
  funext y
  rw [View.read_apply]
  refine congrArg (V m c main_v10 : S1x256.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega
theorem block7 (c : Dev nD) (t : Fin cfg0.N) : (iblk m c 7 t : Vec Ideal S1x256 .f32) = (V m c main_v12 : S1x256.Idx → EReal) := by
  obtain ⟨e0, e1⟩ := idx7 t
  unfold iblk
  funext y
  rw [View.read_apply]
  refine congrArg (V m c main_v12 : S1x256.Idx → EReal) (funext fun a => Fin.ext ?_)
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-! ## What a point writes back -/

/-- The output array the blocks are blocks of: every image through the specification, with the arrays as the region finds
    them, the second layer's weights read transposed and its biases read as rows. -/
abbrev G (c : Dev nD) : S64x256x1024.Idx → EReal :=
  Cert.SE.whole (V m c main_v13)
    (fun p j => (V m c main_v1 : S256x16.Idx → EReal) (ix2 p j)) (fun p j => (V m c main_v3 : S256x16.Idx → EReal) (ix2 p j))
    (fun j => (V m c main_v4 : S1x16.Idx → EReal) (ix2 (0 : Fin 1) j))
    (fun p j => (V m c main_v6 : S16x256.Idx → EReal) (ix2 j p)) (fun p j => (V m c main_v8 : S16x256.Idx → EReal) (ix2 j p))
    (fun p => (V m c main_v10 : S1x256.Idx → EReal) (ix2 (0 : Fin 1) p)) (fun p => (V m c main_v12 : S1x256.Idx → EReal) (ix2 (0 : Fin 1) p))

theorem hN : cfg0.N = 16 := N_0

/-- Point `t` writes back block `t` of `G`. -/
theorem flushed_eq (c : Dev nD) (t : Fin cfg0.N) :
    (dats m 0 c).flushed 8 t = ((cfg0.win 8).blk t).view.read (Elt Ideal) (G m c) := by
  have hlt : t.val < 16 := by have := t.isLt; have h := hN; omega
  obtain ⟨e0, e1, e2⟩ := idx8 t
  show (cfg0.win 8).cut (grid0.coords t) ((dats m 0 c).after 8 t) = _
  rw [after0_8]
  unfold out0_8
  rw [View.canon_unit_zero hz3]
  simp only [View.ld_unit_zero (S := S4x256x1024) hz3, View.ld_unit_zero (S := S256x16) hz2, View.ld_unit_zero (S := S1x16) hz2,
    View.ld_unit_zero (S := S16x256) hz2, View.ld_unit_zero (S := S1x256) hz2]
  rw [block1 m c t, block2 m c t, block3 m c t, block4 m c t, block5 m c t, block6 m c t, block7 m c t]
  funext y
  obtain ⟨q, p, l, rfl⟩ : ∃ (q : Fin 4) (p : Fin 256) (l : Fin 1024), y = ix3 q p l := ⟨y 0, y 1, y 2, eq_ix3 y⟩
  have hb : 4 * t.val + q.val < 64 := by have := q.isLt; omega
  have hemb : ((cfg0.win 8).blk t).view.emb (ix3 q p l) = (ix3 (⟨4 * t.val + q.val, hb⟩ : Fin 64) p l : S64x256x1024.Idx) := by
    funext a
    apply Fin.ext
    match a with
    | ⟨0, _⟩ => show win0_8.index t (0 : Fin 3) * 4 + 1 * q.val = 4 * t.val + q.val; rw [e0]; omega
    | ⟨1, _⟩ => show win0_8.index t (1 : Fin 3) * 256 + 1 * p.val = p.val; rw [e1]; omega
    | ⟨2, _⟩ => show win0_8.index t (2 : Fin 3) * 1024 + 1 * l.val = l.val; rw [e2]; omega
  show k0_pay1 (k0_pay2 (iblk m c 0 t)) (k0_pay3 (iblk m c 0 t) (V m c main_v1) (V m c main_v3) (V m c main_v4))
      (k0_pay4 (iblk m c 0 t) (V m c main_v1) (V m c main_v3) (V m c main_v4) (V m c main_v6)) (k0_pay5 (V m c main_v10)) (V m c main_v8) (V m c main_v12)
      (ix3 q p l) = G m c (((cfg0.win 8).blk t).view.emb (ix3 q p l))
  rw [hemb]
  refine (Cert.ReferenceIdeal.Pay.stored_at _ _ _ _ _ _ _ _ q p l).trans ?_
  exact congrArg (fun X => Cert.SE.out X _ _ _ _ _ _ _ p l)
    (funext fun c' => funext fun l' => image_block m c t q ⟨4 * t.val + q.val, hb⟩ rfl c' l')

/-! ## The blocks tile the output array -/

theorem mem_block (t : Fin cfg0.N) (i : S64x256x1024.Idx) :
    i ∈ ((cfg0.win 8).blk t).view.set ↔ ∀ a : Fin 3, win0_8.index t a * S4x256x1024.size a ≤ (i a).val ∧ (i a).val < win0_8.index t a * S4x256x1024.size a + S4x256x1024.size a := by
  show i ∈ ((View.whole main_v14).slice (win0_8.rect t)).set ↔ _
  rw [View.set_slice_whole, Rect.mem_set_unit]
  exact Iff.rfl

/-- The output array after the run is `G`. -/
theorem final (c : Dev nD) : (dats m 0 c).arrAt 8 cfg0.N = G m c :=
  (dats m 0 c).arrAt_eq_of_cover 8 (G m c) (fun t _ => flushed_eq m c t) fun i => by
    have hi0 : (i 0).val < 64 := (i 0).isLt
    have hi1 : (i 1).val < 256 := (i 1).isLt
    have hi2 : (i 2).val < 1024 := (i 2).isLt
    have h16 : cfg0.N = 16 := hN
    have ht : (i 0).val / 4 < cfg0.N := by omega
    obtain ⟨e0', e1, e2⟩ := idx8 ⟨(i 0).val / 4, ht⟩
    have e0 : win0_8.index ⟨(i 0).val / 4, ht⟩ (0 : Fin 3) = (i 0).val / 4 := e0'
    refine ⟨⟨(i 0).val / 4, ht⟩, flush0_8 _, ?_⟩
    rw [mem_block]
    intro a
    match a with
    | ⟨0, _⟩ => show win0_8.index ⟨(i 0).val / 4, ht⟩ (0 : Fin 3) * 4 ≤ (i 0).val ∧ (i 0).val < win0_8.index ⟨(i 0).val / 4, ht⟩ (0 : Fin 3) * 4 + 4; rw [e0]; omega
    | ⟨1, _⟩ => show win0_8.index ⟨(i 0).val / 4, ht⟩ (1 : Fin 3) * 256 ≤ (i 1).val ∧ (i 1).val < win0_8.index ⟨(i 0).val / 4, ht⟩ (1 : Fin 3) * 256 + 256; rw [e1]; omega
    | ⟨2, _⟩ => show win0_8.index ⟨(i 0).val / 4, ht⟩ (2 : Fin 3) * 1024 ≤ (i 2).val ∧ (i 2).val < win0_8.index ⟨(i 0).val / 4, ht⟩ (2 : Fin 3) * 1024 + 1024; rw [e2]; omega

/-! ## The arrays the region finds, from the arguments -/

theorem images_eq (c : Dev nD) : (V m c main_v13 : S64x256x1024.Idx → EReal)
    = Cert.SE.images Gen.shapeCasts_S64x256x32x32_S64x256x1024 (m ((c : Thread nD τ).loc main_arg0)) := by
  show StableHlo.after hostOps0 (fun b => m (c, b)) (Proc.devRef .tc main_v13) = _
  after_results <;> rfl

theorem w1a_eq (c : Dev nD) : (fun (p : Fin 256) (j : Fin 16) => (V m c main_v1 : S256x16.Idx → EReal) (ix2 p j))
    = Cert.SE.w1a Gen.slices_S16x512_S16x256_0_0 Gen.transposes_S16x256_S256x16_1_0 (m ((c : Thread nD τ).loc main_arg1)) := by
  have e : (V m c main_v1 : S256x16.Idx → EReal) = transpose S256x16 [1, 0] (extractStridedSlice S16x256 ![0, 0] (m ((c : Thread nD τ).loc main_arg1)) Gen.slices_S16x512_S16x256_0_0) Gen.transposes_S16x256_S256x16_1_0 := by
    show StableHlo.after hostOps0 (fun b => m (c, b)) (Proc.devRef .tc main_v1) = _
    after_results <;> rfl
  rw [e]; rfl

theorem w1m_eq (c : Dev nD) : (fun (p : Fin 256) (j : Fin 16) => (V m c main_v3 : S256x16.Idx → EReal) (ix2 p j))
    = Cert.SE.w1m Gen.slices_S16x512_S16x256_0_256 Gen.transposes_S16x256_S256x16_1_0 (m ((c : Thread nD τ).loc main_arg1)) := by
  have e : (V m c main_v3 : S256x16.Idx → EReal) = transpose S256x16 [1, 0] (extractStridedSlice S16x256 ![0, 256] (m ((c : Thread nD τ).loc main_arg1)) Gen.slices_S16x512_S16x256_0_256) Gen.transposes_S16x256_S256x16_1_0 := by
    show StableHlo.after hostOps0 (fun b => m (c, b)) (Proc.devRef .tc main_v3) = _
    after_results <;> rfl
  rw [e]; rfl

theorem bias1_eq (c : Dev nD) : (fun (j : Fin 16) => (V m c main_v4 : S1x16.Idx → EReal) (ix2 (0 : Fin 1) j))
    = Cert.SE.bias1 Gen.shapeCasts_S16_S1x16 (m ((c : Thread nD τ).loc main_arg2)) := by
  have e : (V m c main_v4 : S1x16.Idx → EReal) = shapeCast S1x16 (m ((c : Thread nD τ).loc main_arg2)) Gen.shapeCasts_S16_S1x16 := by
    show StableHlo.after hostOps0 (fun b => m (c, b)) (Proc.devRef .tc main_v4) = _
    after_results <;> rfl
  rw [e]; rfl

theorem w2g_eq (c : Dev nD) : (fun (p : Fin 256) (j : Fin 16) => (V m c main_v6 : S16x256.Idx → EReal) (ix2 j p))
    = Cert.SE.w2g Gen.slices_S512x16_S256x16_0_0 (m ((c : Thread nD τ).loc main_arg3)) := by
  have e : (V m c main_v6 : S16x256.Idx → EReal) = transpose S16x256 [1, 0] (extractStridedSlice S256x16 ![0, 0] (m ((c : Thread nD τ).loc main_arg3)) Gen.slices_S512x16_S256x16_0_0) Gen.transposes_S256x16_S16x256_1_0 := by
    show StableHlo.after hostOps0 (fun b => m (c, b)) (Proc.devRef .tc main_v6) = _
    after_results <;> rfl
  rw [e]; exact funext fun p => funext fun j => transpose_ix2_apply _ _ j p

theorem w2b_eq (c : Dev nD) : (fun (p : Fin 256) (j : Fin 16) => (V m c main_v8 : S16x256.Idx → EReal) (ix2 j p))
    = Cert.SE.w2b Gen.slices_S512x16_S256x16_256_0 (m ((c : Thread nD τ).loc main_arg3)) := by
  have e : (V m c main_v8 : S16x256.Idx → EReal) = transpose S16x256 [1, 0] (extractStridedSlice S256x16 ![256, 0] (m ((c : Thread nD τ).loc main_arg3)) Gen.slices_S512x16_S256x16_256_0) Gen.transposes_S256x16_S16x256_1_0 := by
    show StableHlo.after hostOps0 (fun b => m (c, b)) (Proc.devRef .tc main_v8) = _
    after_results <;> rfl
  rw [e]; exact funext fun p => funext fun j => transpose_ix2_apply _ _ j p

theorem bias2g_eq (c : Dev nD) : (fun (p : Fin 256) => (V m c main_v10 : S1x256.Idx → EReal) (ix2 (0 : Fin 1) p))
    = Cert.SE.bias2g Gen.slices_S512_S256_0 (m ((c : Thread nD τ).loc main_arg4)) := by
  have e : (V m c main_v10 : S1x256.Idx → EReal) = shapeCast S1x256 (extractStridedSlice S256 ![0] (m ((c : Thread nD τ).loc main_arg4)) Gen.slices_S512_S256_0) Gen.shapeCasts_S256_S1x256 := by
    show StableHlo.after hostOps0 (fun b => m (c, b)) (Proc.devRef .tc main_v10) = _
    after_results <;> rfl
  rw [e]; exact funext fun p => shapeCast_a_1a_apply _ _ 0 p

theorem bias2b_eq (c : Dev nD) : (fun (p : Fin 256) => (V m c main_v12 : S1x256.Idx → EReal) (ix2 (0 : Fin 1) p))
    = Cert.SE.bias2b Gen.slices_S512_S256_256 (m ((c : Thread nD τ).loc main_arg4)) := by
  have e : (V m c main_v12 : S1x256.Idx → EReal) = shapeCast S1x256 (extractStridedSlice S256 ![256] (m ((c : Thread nD τ).loc main_arg4)) Gen.slices_S512_S256_256) Gen.shapeCasts_S256_S1x256 := by
    show StableHlo.after hostOps0 (fun b => m (c, b)) (Proc.devRef .tc main_v12) = _
    after_results <;> rfl
  rw [e]; exact funext fun p => shapeCast_a_1a_apply _ _ 0 p

/-- The output array after the run, from the arguments. -/
theorem final_args (c : Dev nD) : (dats m 0 c).arrAt 8 cfg0.N
    = Cert.SE.whole (Cert.SE.images Gen.shapeCasts_S64x256x32x32_S64x256x1024 (m ((c : Thread nD τ).loc main_arg0)))
        (Cert.SE.w1a Gen.slices_S16x512_S16x256_0_0 Gen.transposes_S16x256_S256x16_1_0 (m ((c : Thread nD τ).loc main_arg1)))
        (Cert.SE.w1m Gen.slices_S16x512_S16x256_0_256 Gen.transposes_S16x256_S256x16_1_0 (m ((c : Thread nD τ).loc main_arg1)))
        (Cert.SE.bias1 Gen.shapeCasts_S16_S1x16 (m ((c : Thread nD τ).loc main_arg2)))
        (Cert.SE.w2g Gen.slices_S512x16_S256x16_0_0 (m ((c : Thread nD τ).loc main_arg3))) (Cert.SE.w2b Gen.slices_S512x16_S256x16_256_0 (m ((c : Thread nD τ).loc main_arg3)))
        (Cert.SE.bias2g Gen.slices_S512_S256_0 (m ((c : Thread nD τ).loc main_arg4))) (Cert.SE.bias2b Gen.slices_S512_S256_256 (m ((c : Thread nD τ).loc main_arg4))) := by
  rw [final m c]
  show Cert.SE.whole _ _ _ _ _ _ _ _ = _
  rw [images_eq m c, w1a_eq m c, w1m_eq m c, bias1_eq m c, w2g_eq m c, w2b_eq m c, bias2g_eq m c, bias2b_eq m c]

/-! ## The host operation after the region, and the run -/

/-- The one operation after the region reads the output array back as `[64, 256, 32, 32]`, whatever the arrays hold. -/
theorem tail_of (c : Dev nD) (A : (w : Fin 9) → Buf (Elt Ideal) (((cfgs 0).spec w).arr.view.loc (c.tc : Thread nD τ))) :
    StableHlo.after hostOps1 (Pipeline.withArrays (cfgs 0).spec c (V0 m c) A) (Proc.devRef .tc main_v15)
      = shapeCast S64x256x32x32 (A 8) Gen.shapeCasts_S64x256x1024_S64x256x32x32 := by
  after_results
  rw [Pipeline.withArrays_arr (cfgs 0).spec launch0.win.arr_inj c (V0 m c) A 8]
  rfl

/-- The result buffer after the run is the specification's result of the arguments. -/
theorem result_eq (c : Dev nD) : Pipeline.afterTail₀ cfgs (dats m) 0 (V0 m) [hostOps1] c main_v15
    = Cert.SE.result Gen.shapeCasts_S64x256x32x32_S64x256x1024 Gen.slices_S16x512_S16x256_0_0 Gen.slices_S16x512_S16x256_0_256
        Gen.transposes_S16x256_S256x16_1_0 Gen.shapeCasts_S16_S1x16 Gen.slices_S512x16_S256x16_0_0 Gen.slices_S512x16_S256x16_256_0
        Gen.slices_S512_S256_0 Gen.slices_S512_S256_256 Gen.shapeCasts_S64x256x1024_S64x256x32x32
        (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  refine (tail_of m c _).trans ?_
  unfold Cert.SE.result
  exact congrArg (fun A => shapeCast S64x256x32x32 A Gen.shapeCasts_S64x256x1024_S64x256x32x32) (final_args m c)

/-- THE RUN, READ: every weakly fair execution ends with the result buffer at the specification's result of the
    arguments, the arguments unchanged. -/
theorem run : θ_run defs (onTc (τ := τ) (main (F := Ideal))) ⟨m, fun _ => 0, ρ⟩ fun r => ∀ c : Dev nD,
      r.2.mem ((c.tc : Thread nD τ).loc main_v15)
        = Cert.SE.result Gen.shapeCasts_S64x256x32x32_S64x256x1024 Gen.slices_S16x512_S16x256_0_0 Gen.slices_S16x512_S16x256_0_256
        Gen.transposes_S16x256_S256x16_1_0 Gen.shapeCasts_S16_S1x16 Gen.slices_S512x16_S256x16_0_0 Gen.slices_S512x16_S256x16_256_0
        Gen.slices_S512_S256_0 Gen.slices_S512_S256_256 Gen.shapeCasts_S64x256x1024_S64x256x32x32
        (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Final

end
-- ==== Proof.lean ====
/-
  A squeeze-and-excitation block over a batch of 64 images of 256 channels and 1024 positions, computed two ways.

  Both programs pool every channel of every image to its mean and its maximum, pass the two pooled vectors through a
  16-unit hidden layer with the smooth gate `h · tanh (softplus h)`, map the gated units to a per-channel scale and
  shift, and return `logistic (scale) · x + shift`. One program handles one image per grid point and keeps every
  per-channel quantity as a column, forming the hidden layer as ONE sum over the channels of `mean · weight + max · weight`
  and the second layer as row sums of `weight · gated`; the other handles four images per grid point and forms the hidden
  layer as the sum of TWO matrix products and the second layer as matrix products `gated · weightᵀ` with the weights
  transposed beforehand.

  On the extended reals the two agree exactly: a finite sum of pairwise sums is the sum of the two sums, and the factors
  of a product commute — both hold for every extended real, so the inputs' finiteness is never used. Each program's run
  is read off its frame: the block a grid point writes back is a block of one whole-array function (`Cert.SE.whole`),
  the blocks tile the output, and the host operations around the region turn the arguments into the region's arrays and
  the output back into the result's shape; both runs end with the result buffer at `Cert.SE.result` of the arguments.
  The kernel read at machine words and read at the extended reals have the same text, so nothing is owed for that step.
-/
import proofs.«181714_g2000503831619552_pallasbulk_628_2_alg».proof.Defs
import proofs.«181714_g2000503831619552_pallasbulk_628_2_alg».proof.Proof.Gen.Kernel
import proofs.«181714_g2000503831619552_pallasbulk_628_2_alg».proof.Proof.Gen.Kernel.Skeleton
import proofs.«181714_g2000503831619552_pallasbulk_628_2_alg».proof.Proof.Gen.Kernel.Launch
import proofs.«181714_g2000503831619552_pallasbulk_628_2_alg».proof.Proof.Gen.Kernel.Points
import proofs.«181714_g2000503831619552_pallasbulk_628_2_alg».proof.Proof.Gen.Kernel.Frame
import proofs.«181714_g2000503831619552_pallasbulk_628_2_alg».proof.Proof.Gen.KernelIdeal
import proofs.«181714_g2000503831619552_pallasbulk_628_2_alg».proof.Proof.Gen.KernelIdeal.Skeleton
import proofs.«181714_g2000503831619552_pallasbulk_628_2_alg».proof.Proof.Gen.KernelIdeal.Launch
import proofs.«181714_g2000503831619552_pallasbulk_628_2_alg».proof.Proof.Gen.KernelIdeal.Points
import proofs.«181714_g2000503831619552_pallasbulk_628_2_alg».proof.Proof.Gen.KernelIdeal.Frame
import proofs.«181714_g2000503831619552_pallasbulk_628_2_alg».proof.Proof.Gen.ReferenceIdeal
import proofs.«181714_g2000503831619552_pallasbulk_628_2_alg».proof.Proof.Gen.ReferenceIdeal.Skeleton
import proofs.«181714_g2000503831619552_pallasbulk_628_2_alg».proof.Proof.Gen.ReferenceIdeal.Launch
import proofs.«181714_g2000503831619552_pallasbulk_628_2_alg».proof.Proof.Gen.ReferenceIdeal.Points
import proofs.«181714_g2000503831619552_pallasbulk_628_2_alg».proof.Proof.Gen.ReferenceIdeal.Frame
import proofs.«181714_g2000503831619552_pallasbulk_628_2_alg».proof.Proof.Gen.Pre_finite_inputs
import proofs.«181714_g2000503831619552_pallasbulk_628_2_alg».proof.Proof.KFinal
import proofs.«181714_g2000503831619552_pallasbulk_628_2_alg».proof.Proof.RFinal
import Idealize.ShloMosaic.Adequacy
import Idealize.ShloMosaic.Init

noncomputable section

namespace Cert.Proof

open Idealize.ShloMosaic Idealize.SL.Sem

/-- Each program terminates without a fault and leaves its arguments as they were. -/
theorem frame_words : Cert.frame_Kernel := fun m ρ _ => Cert.Kernel.Gen.frame m ρ
theorem frame_exact : Cert.frame_KernelIdeal := fun m ρ _ => Cert.KernelIdeal.Gen.frame m ρ
theorem frame_reference : Cert.frame_ReferenceIdeal := fun m ρ _ => Cert.ReferenceIdeal.Gen.frame m ρ

/-- Reading the kernel at the extended reals rewrote none of its operations. -/
theorem same_text : Cert.preserves_Kernel_KernelIdeal := trivial

/-- From memories that agree on the arguments both programs end with the result buffer at the one function
    `Cert.SE.result` of the arguments. -/
theorem same_result : Cert.algebraic_KernelIdeal_ReferenceIdeal := by
  intro m ρ m' ρ' _ hagree
  refine ⟨fun c => Cert.SE.result Cert.KernelIdeal.Gen.shapeCasts_S64x256x32x32_S64x256x1024 Cert.KernelIdeal.Gen.slices_S16x512_S16x256_0_0 Cert.KernelIdeal.Gen.slices_S16x512_S16x256_0_256
      Cert.KernelIdeal.Gen.transposes_S16x256_S256x16_1_0 Cert.KernelIdeal.Gen.shapeCasts_S16_S1x16 Cert.KernelIdeal.Gen.slices_S512x16_S256x16_0_0 Cert.KernelIdeal.Gen.slices_S512x16_S256x16_256_0
      Cert.KernelIdeal.Gen.slices_S512_S256_0 Cert.KernelIdeal.Gen.slices_S512_S256_256 Cert.KernelIdeal.Gen.shapeCasts_S64x256x1024_S64x256x32x32
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ?_) (Cert.ReferenceIdeal.Final.run m' ρ')
  obtain ⟨h0, h1, h2, h3, h4⟩ := hagree c
  refine ⟨(h c).1.trans ?_, (h c).2⟩
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_words, frame_exact, frame_reference, same_text, same_result⟩

end Cert.Proof

end
